-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x12 : Shape := ⟨2, ![1048576, 12]⟩
abbrev S7x12 : Shape := ⟨2, ![7, 12]⟩
abbrev S7x1 : Shape := ⟨2, ![7, 1]⟩
abbrev S7x7 : Shape := ⟨2, ![7, 7]⟩
abbrev S1x7 : Shape := ⟨2, ![1, 7]⟩
abbrev S1x1 : Shape := ⟨2, ![1, 1]⟩
abbrev S_ : Shape := ⟨0, ![]⟩

class Facts : Prop where
  bcast_S_S1048576x12 : S_.BroadcastsInDim S1048576x12 (![] : Fin 0 → Fin S1048576x12.rank)
  reducesTo_S1048576x12_S_d0_1 : S1048576x12.ReducesTo [0, 1] S_
  h_S_ : 0 < S_.numel
  bcast_S_S7x12 : S_.BroadcastsInDim S7x12 (![] : Fin 0 → Fin S7x12.rank)
  reducesTo_S7x12_S_d0_1 : S7x12.ReducesTo [0, 1] S_
  bcast_S_S7x1 : S_.BroadcastsInDim S7x1 (![] : Fin 0 → Fin S7x1.rank)
  reducesTo_S7x1_S_d0_1 : S7x1.ReducesTo [0, 1] S_
  bcast_S_S7x7 : S_.BroadcastsInDim S7x7 (![] : Fin 0 → Fin S7x7.rank)
  reducesTo_S7x7_S_d0_1 : S7x7.ReducesTo [0, 1] S_
  bcast_S_S1x7 : S_.BroadcastsInDim S1x7 (![] : Fin 0 → Fin S1x7.rank)
  reducesTo_S1x7_S_d0_1 : S1x7.ReducesTo [0, 1] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S7x1 .f32) (main_arg5 : FVec F S1x7 .f32) (main_arg6 : FVec F S1x1 .f32) (main_v13 : IVec S_ 1) (main_v16 : IVec S7x7 1) : IVec S_ 1 :=
  let main_c_5 : IVec S_ 1 := constantI S_ 1 1#1
  let main_v17 : IVec S_ 1 := (fun x v => Host.reduce IntOp.andi x v reducesTo_S7x7_S_d0_1 h_S_) main_v16 main_c_5
  let main_v18 : IVec S_ 1 := andi main_v13 main_v17
  let main_v19 : FVec F S7x1 .f32 := Host.absf main_arg4
  let main_cst_6 : FVec F S_ .f32 := constant S_ .f32 0x7F800000#32
  let main_v20 : FVec F S7x1 .f32 := broadcastInDim S7x1 ![] bcast_S_S7x1 main_cst_6
  let main_v21 : IVec S7x1 1 := cmpf .olt main_v19 main_v20
  let main_c_7 : IVec S_ 1 := constantI S_ 1 1#1
  let main_v22 : IVec S_ 1 := (fun x v => Host.reduce IntOp.andi x v reducesTo_S7x1_S_d0_1 h_S_) main_v21 main_c_7
  let main_v23 : IVec S_ 1 := andi main_v18 main_v22
  let main_v24 : FVec F S1x7 .f32 := Host.absf main_arg5
  let main_cst_8 : FVec F S_ .f32 := constant S_ .f32 0x7F800000#32
  let main_v25 : FVec F S1x7 .f32 := broadcastInDim S1x7 ![] bcast_S_S1x7 main_cst_8
  let main_v26 : IVec S1x7 1 := cmpf .olt main_v24 main_v25
  let main_c_9 : IVec S_ 1 := constantI S_ 1 1#1
  let main_v27 : IVec S_ 1 := (fun x v => Host.reduce IntOp.andi x v reducesTo_S1x7_S_d0_1 h_S_) main_v26 main_c_9
  let main_v28 : IVec S_ 1 := andi main_v23 main_v27
  let main_v29 : FVec F S1x1 .f32 := Host.absf main_arg6
  let main_cst_10 : FVec F S_ .f32 := constant S_ .f32 0x7F800000#32
  let main_v30 : FVec F S1x1 .f32 := broadcastInDim S1x1 ![] bcast_S_S1x1 main_cst_10
  let main_v31 : IVec S1x1 1 := cmpf .olt main_v29 main_v30
  let main_c_11 : IVec S_ 1 := constantI S_ 1 1#1
  let main_v32 : IVec S_ 1 := (fun x v => Host.reduce IntOp.andi x v reducesTo_S1x1_S_d0_1 h_S_) main_v31 main_c_11
  let main_v33 : IVec S_ 1 := andi main_v28 main_v32
  main_v33

def fn {F : FTy → Type} [FloatOps F] (main_arg0 : FVec F S1048576x12 .f32) (main_arg1 : FVec F S7x12 .f32) (main_arg2 : FVec F S7x1 .f32) (main_arg3 : FVec F S7x7 .f32) (main_arg4 : FVec F S7x1 .f32) (main_arg5 : FVec F S1x7 .f32) (main_arg6 : FVec F S1x1 .f32) : IVec S_ 1 :=
  let main_v0 : FVec F S1048576x12 .f32 := Host.absf main_arg0
  let main_cst : FVec F S_ .f32 := constant S_ .f32 0x7F800000#32
  let main_v1 : FVec F S1048576x12 .f32 := broadcastInDim S1048576x12 ![] bcast_S_S1048576x12 main_cst
  let main_v2 : IVec S1048576x12 1 := cmpf .olt main_v0 main_v1
  let main_c : IVec S_ 1 := constantI S_ 1 1#1
  let main_v3 : IVec S_ 1 := (fun x v => Host.reduce IntOp.andi x v reducesTo_S1048576x12_S_d0_1 h_S_) main_v2 main_c
  let main_v4 : FVec F S7x12 .f32 := Host.absf main_arg1
  let main_cst_0 : FVec F S_ .f32 := constant S_ .f32 0x7F800000#32
  let main_v5 : FVec F S7x12 .f32 := broadcastInDim S7x12 ![] bcast_S_S7x12 main_cst_0
  let main_v6 : IVec S7x12 1 := cmpf .olt main_v4 main_v5
  let main_c_1 : IVec S_ 1 := constantI S_ 1 1#1
  let main_v7 : IVec S_ 1 := (fun x v => Host.reduce IntOp.andi x v reducesTo_S7x12_S_d0_1 h_S_) main_v6 main_c_1
  let main_v8 : IVec S_ 1 := andi main_v3 main_v7
  let main_v9 : FVec F S7x1 .f32 := Host.absf main_arg2
  let main_cst_2 : FVec F S_ .f32 := constant S_ .f32 0x7F800000#32
  let main_v10 : FVec F S7x1 .f32 := broadcastInDim S7x1 ![] bcast_S_S7x1 main_cst_2
  let main_v11 : IVec S7x1 1 := cmpf .olt main_v9 main_v10
  let main_c_3 : IVec S_ 1 := constantI S_ 1 1#1
  let main_v12 : IVec S_ 1 := (fun x v => Host.reduce IntOp.andi x v reducesTo_S7x1_S_d0_1 h_S_) main_v11 main_c_3
  let main_v13 : IVec S_ 1 := andi main_v8 main_v12
  let main_v14 : FVec F S7x7 .f32 := Host.absf main_arg3
  let main_cst_4 : FVec F S_ .f32 := constant S_ .f32 0x7F800000#32
  let main_v15 : FVec F S7x7 .f32 := broadcastInDim S7x7 ![] bcast_S_S7x7 main_cst_4
  let main_v16 : IVec S7x7 1 := cmpf .olt main_v14 main_v15
  fn_part1 (F := F) main_arg4 main_arg5 main_arg6 main_v13 main_v16
-- ==== Kernel.lean ====
abbrev S1048576x12 : Shape := ⟨2, ![1048576, 12]⟩
abbrev S7x12 : Shape := ⟨2, ![7, 12]⟩
abbrev S7x1 : Shape := ⟨2, ![7, 1]⟩
abbrev S7x7 : Shape := ⟨2, ![7, 7]⟩
abbrev S1x7 : Shape := ⟨2, ![1, 7]⟩
abbrev S1x1 : Shape := ⟨2, ![1, 1]⟩
abbrev S12x1048576 : Shape := ⟨2, ![12, 1048576]⟩
abbrev S1x1048576 : Shape := ⟨2, ![1, 1048576]⟩
abbrev S1048576x1 : Shape := ⟨2, ![1048576, 1]⟩
abbrev S12x131072 : Shape := ⟨2, ![12, 131072]⟩
abbrev S1x131072 : Shape := ⟨2, ![1, 131072]⟩
abbrev S16x131072 : Shape := ⟨2, ![16, 131072]⟩
abbrev S2x131072 : Shape := ⟨2, ![2, 131072]⟩
abbrev S7x8 : Shape := ⟨2, ![7, 8]⟩
abbrev S1x8 : Shape := ⟨2, ![1, 8]⟩
abbrev S7x16 : Shape := ⟨2, ![7, 16]⟩
abbrev S1x16 : Shape := ⟨2, ![1, 16]⟩
abbrev S8x16 : Shape := ⟨2, ![8, 16]⟩
abbrev S7x131072 : Shape := ⟨2, ![7, 131072]⟩
abbrev S8x131072 : Shape := ⟨2, ![8, 131072]⟩

abbrev nBuf : Space → Nat
  | .hbm => 10
  | .vmem => 11
  | .smem => 0
  | _ => 0

abbrev bufTy : (tb : Table) → Fin (tcTables nBuf tb) → BufTy
  | .hbm, ⟨0, _⟩ => ⟨S1048576x12, .f32⟩
  | .hbm, ⟨1, _⟩ => ⟨S7x12, .f32⟩
  | .hbm, ⟨2, _⟩ => ⟨S7x1, .f32⟩
  | .hbm, ⟨3, _⟩ => ⟨S7x7, .f32⟩
  | .hbm, ⟨4, _⟩ => ⟨S7x1, .f32⟩
  | .hbm, ⟨5, _⟩ => ⟨S1x7, .f32⟩
  | .hbm, ⟨6, _⟩ => ⟨S1x1, .f32⟩
  | .hbm, ⟨7, _⟩ => ⟨S12x1048576, .f32⟩
  | .hbm, ⟨8, _⟩ => ⟨S1x1048576, .f32⟩
  | .hbm, ⟨9, _⟩ => ⟨S1048576x1, .f32⟩
  | .local _ .vmem, ⟨0, _⟩ => ⟨S12x131072, .f32⟩
  | .local _ .vmem, ⟨1, _⟩ => ⟨S12x131072, .f32⟩
  | .local _ .vmem, ⟨2, _⟩ => ⟨S7x12, .f32⟩
  | .local _ .vmem, ⟨3, _⟩ => ⟨S7x7, .f32⟩
  | .local _ .vmem, ⟨4, _⟩ => ⟨S1x7, .f32⟩
  | .local _ .vmem, ⟨5, _⟩ => ⟨S7x1, .f32⟩
  | .local _ .vmem, ⟨6, _⟩ => ⟨S7x1, .f32⟩
  | .local _ .vmem, ⟨7, _⟩ => ⟨S1x1, .f32⟩
  | .local _ .vmem, ⟨8, _⟩ => ⟨S1x131072, .f32⟩
  | .local _ .vmem, ⟨9, _⟩ => ⟨S1x131072, .f32⟩
  | .local _ .vmem, ⟨10, _⟩ => ⟨S16x131072, .bf16⟩
  | _, _ => ⟨S1048576x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S12x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x131072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1048576x12_S12x1048576_1_0 : S1048576x12.Transposes [1, 0] S12x1048576
  transposes_S1x1048576_S1048576x1_1_0 : S1x1048576.Transposes [1, 0] S1048576x1
  inb_S16x131072_S16x131072_0_0 : ∀ a, (![0, 0] : Fin 2 → Nat) a + S16x131072.size a ≤ S16x131072.size a
  h_S16x131072 : 0 < S16x131072.numel
  shapeCasts_S16x131072_S16x131072 : S16x131072.ShapeCasts S16x131072
  packedbf16_S16x131072_S16x131072_0_0 : (Rect.unit (s := S16x131072) ![0, 0] S16x131072.size inb_S16x131072_S16x131072_0_0).PackedRows (EltTy.packing .bf16)
  inb_S16x131072_S1x131072_15_0 : ∀ a, (![15, 0] : Fin 2 → Nat) a + S1x131072.size a ≤ S16x131072.size a
  h_S1x131072 : 0 < S1x131072.numel
  shapeCasts_S1x131072_S1x131072 : S1x131072.ShapeCasts S1x131072
  inb_S16x131072_S2x131072_14_0 : ∀ a, (![14, 0] : Fin 2 → Nat) a + S2x131072.size a ≤ S16x131072.size a
  h_S2x131072 : 0 < S2x131072.numel
  slices_S2x131072_S1x131072_1_0 : S2x131072.Slices ![1, 0] S1x131072
  packedbf16_S16x131072_S2x131072_14_0 : (Rect.unit (s := S16x131072) ![14, 0] S2x131072.size inb_S16x131072_S2x131072_14_0).PackedRows (EltTy.packing .bf16)
  inb_S7x7_S7x7_0_0 : ∀ a, (![0, 0] : Fin 2 → Nat) a + S7x7.size a ≤ S7x7.size a
  h_S7x7 : 0 < S7x7.numel
  bitsLt_bf16_f32 : FTy.bits .bf16 < FTy.bits .f32
  inb_S1x7_S1x7_0_0 : ∀ a, (![0, 0] : Fin 2 → Nat) a + S1x7.size a ≤ S1x7.size a
  h_S1x7 : 0 < S1x7.numel
  inb_S7x1_S7x1_0_0 : ∀ a, (![0, 0] : Fin 2 → Nat) a + S7x1.size a ≤ S7x1.size a
  h_S7x1 : 0 < S7x1.numel
  concatenates_S7x7_S7x8_S7x1_S7x16_d1 : Shape.Concatenates [S7x7, S7x8, S7x1] S7x16 1
  inb_S1x1_S1x1_0_0 : ∀ a, (![0, 0] : Fin 2 → Nat) a + S1x1.size a ≤ S1x1.size a
  h_S1x1 : 0 < S1x1.numel
  concatenates_S1x8_S1x7_S1x1_S1x16_d1 : Shape.Concatenates [S1x8, S1x7, S1x1] S1x16 1
  concatenates_S7x16_S1x16_S8x16_d0 : Shape.Concatenates [S7x16, S1x16] S8x16 0
  inb_S12x131072_S12x131072_0_0 : ∀ a, (![0, 0] : Fin 2 → Nat) a + S12x131072.size a ≤ S12x131072.size a
  h_S12x131072 : 0 < S12x131072.numel
  shapeCasts_S12x131072_S12x131072 : S12x131072.ShapeCasts S12x131072
  inb_S7x12_S7x12_0_0 : ∀ a, (![0, 0] : Fin 2 → Nat) a + S7x12.size a ≤ S7x12.size a
  h_S7x12 : 0 < S7x12.numel
  slices_S8x131072_o7_0_S1x131072 : S8x131072.Slices ![7, 0] S1x131072
  inb_S1x131072_S1x131072_0_0 : ∀ a, (![0, 0] : Fin 2 → Nat) a + S1x131072.size a ≤ S1x131072.size a
  broadcasts_S7x1_S7x131072 : S7x1.Broadcasts S7x131072
  inb_S16x131072_S7x131072_0_0 : ∀ a, (![0, 0] : Fin 2 → Nat) a + S7x131072.size a ≤ S16x131072.size a
  h_S7x131072 : 0 < S7x131072.numel
  shapeCasts_S7x131072_S7x131072 : S7x131072.ShapeCasts S7x131072
  inb_S16x131072_S8x131072_0_0 : ∀ a, (![0, 0] : Fin 2 → Nat) a + S8x131072.size a ≤ S16x131072.size a
  h_S8x131072 : 0 < S8x131072.numel
  slices_S8x131072_S7x131072_0_0 : S8x131072.Slices ![0, 0] S7x131072
  packedbf16_S16x131072_S8x131072_0_0 : (Rect.unit (s := S16x131072) ![0, 0] S8x131072.size inb_S16x131072_S8x131072_0_0).PackedRows (EltTy.packing .bf16)
  slices_S8x131072_o0_0_S7x131072 : S8x131072.Slices ![0, 0] S7x131072
  inb_S16x131072_S7x131072_8_0 : ∀ a, (![8, 0] : Fin 2 → Nat) a + S7x131072.size a ≤ S16x131072.size a
  inb_S16x131072_S8x131072_8_0 : ∀ a, (![8, 0] : Fin 2 → Nat) a + S8x131072.size a ≤ S16x131072.size a
  packedbf16_S16x131072_S8x131072_8_0 : (Rect.unit (s := S16x131072) ![8, 0] S8x131072.size inb_S16x131072_S8x131072_8_0).PackedRows (EltTy.packing .bf16)
  dot_S7x12_S12x131072_S7x131072_1_0_0_1_n_n_wf : DotDims.WF S7x12 S12x131072 S7x131072 [1] [0] [0] [1] [] []
  dot_S8x16_S16x131072_S8x131072_1_0_0_1_n_n_wf : DotDims.WF S8x16 S16x131072 S8x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x131072.size a ≤ S12x1048576.size a
  hwx0_0 : ∀ i : grid0.Coords, EltTy.bits .f32 = 32 ∨ (Rect.block (s := S12x1048576) S12x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x12.size a ≤ S7x12.size a
  hwx0_1 : ∀ i : grid0.Coords, EltTy.bits .f32 = 32 ∨ (Rect.block (s := S7x12) S7x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x7.size a ≤ S7x7.size a
  hwx0_2 : ∀ i : grid0.Coords, EltTy.bits .f32 = 32 ∨ (Rect.block (s := S7x7) S7x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x7.size a ≤ S1x7.size a
  hwx0_3 : ∀ i : grid0.Coords, EltTy.bits .f32 = 32 ∨ (Rect.block (s := S1x7) S1x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x1.size a ≤ S7x1.size a
  hwx0_4 : ∀ i : grid0.Coords, EltTy.bits .f32 = 32 ∨ (Rect.block (s := S7x1) S7x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7x1.size a ≤ S7x1.size a
  hwx0_5 : ∀ i : grid0.Coords, EltTy.bits .f32 = 32 ∨ (Rect.block (s := S7x1) S7x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x131072.size a ≤ S1x1048576.size a
  hwx0_7 : ∀ i : grid0.Coords, EltTy.bits .f32 = 32 ∨ (Rect.block (s := S1x1048576) S1x131072.size (cc0_transform_7 i) (hinb0_7 i)).WholeWords (EltTy.packing .f32)

variable [Facts₀]

def dot_S7x12_S12x131072_S7x131072_1_0_0_1_n_n : DotDims S7x12 S12x131072 S7x131072 where
  lhsContracting := [1]
  rhsContracting := [0]
  lhsNonContracting := [0]
  rhsNonContracting := [1]
  lhsBatch := []
  rhsBatch := []
  wf := dot_S7x12_S12x131072_S7x131072_1_0_0_1_n_n_wf
def dot_S8x16_S16x131072_S8x131072_1_0_0_1_n_n : DotDims S8x16 S16x131072 S8x131072 where
  lhsContracting := [1]
  rhsContracting := [0]
  lhsNonContracting := [0]
  rhsNonContracting := [1]
  lhsBatch := []
  rhsBatch := []
  wf := dot_S8x16_S16x131072_S8x131072_1_0_0_1_n_n_wf

abbrev win0_0 : Pipeline.Window sig grid0 :=
  Pipeline.Window.ofSpec (Memref.whole main_call0_v0) S12x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S7x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S7x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S7x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S1x131072.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x12 : Shape := ⟨2, ![1048576, 12]⟩
abbrev S7x12 : Shape := ⟨2, ![7, 12]⟩
abbrev S7x1 : Shape := ⟨2, ![7, 1]⟩
abbrev S7x7 : Shape := ⟨2, ![7, 7]⟩
abbrev S1x7 : Shape := ⟨2, ![1, 7]⟩
abbrev S1x1 : Shape := ⟨2, ![1, 1]⟩
abbrev S12x1048576 : Shape := ⟨2, ![12, 1048576]⟩
abbrev S1x1048576 : Shape := ⟨2, ![1, 1048576]⟩
abbrev S1048576x1 : Shape := ⟨2, ![1048576, 1]⟩
abbrev S12x16384 : Shape := ⟨2, ![12, 16384]⟩
abbrev S1x16384 : Shape := ⟨2, ![1, 16384]⟩
abbrev S7x16384 : Shape := ⟨2, ![7, 16384]⟩

abbrev nBuf : Space → Nat
  | .hbm => 10
  | .vmem => 10
  | .smem => 0
  | _ => 0

abbrev bufTy : (tb : Table) → Fin (tcTables nBuf tb) → BufTy
  | .hbm, ⟨0, _⟩ => ⟨S1048576x12, .f32⟩
  | .hbm, ⟨1, _⟩ => ⟨S7x12, .f32⟩
  | .hbm, ⟨2, _⟩ => ⟨S7x1, .f32⟩
  | .hbm, ⟨3, _⟩ => ⟨S7x7, .f32⟩
  | .hbm, ⟨4, _⟩ => ⟨S7x1, .f32⟩
  | .hbm, ⟨5, _⟩ => ⟨S1x7, .f32⟩
  | .hbm, ⟨6, _⟩ => ⟨S1x1, .f32⟩
  | .hbm, ⟨7, _⟩ => ⟨S12x1048576, .f32⟩
  | .hbm, ⟨8, _⟩ => ⟨S1x1048576, .f32⟩
  | .hbm, ⟨9, _⟩ => ⟨S1048576x1, .f32⟩
  | .local _ .vmem, ⟨0, _⟩ => ⟨S12x16384, .f32⟩
  | .local _ .vmem, ⟨1, _⟩ => ⟨S12x16384, .f32⟩
  | .local _ .vmem, ⟨2, _⟩ => ⟨S7x12, .f32⟩
  | .local _ .vmem, ⟨3, _⟩ => ⟨S7x1, .f32⟩
  | .local _ .vmem, ⟨4, _⟩ => ⟨S7x7, .f32⟩
  | .local _ .vmem, ⟨5, _⟩ => ⟨S7x1, .f32⟩
  | .local _ .vmem, ⟨6, _⟩ => ⟨S1x7, .f32⟩
  | .local _ .vmem, ⟨7, _⟩ => ⟨S1x1, .f32⟩
  | .local _ .vmem, ⟨8, _⟩ => ⟨S1x16384, .f32⟩
  | .local _ .vmem, ⟨9, _⟩ => ⟨S1x16384, .f32⟩
  | _, _ => ⟨S1048576x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1048576x12_S12x1048576_1_0 : S1048576x12.Transposes [1, 0] S12x1048576
  transposes_S1x1048576_S1048576x1_1_0 : S1x1048576.Transposes [1, 0] S1048576x1
  inb_S12x16384_S12x16384_0_0 : ∀ a, (![0, 0] : Fin 2 → Nat) a + S12x16384.size a ≤ S12x16384.size a
  h_S12x16384 : 0 < S12x16384.numel
  shapeCasts_S12x16384_S12x16384 : S12x16384.ShapeCasts S12x16384
  inb_S7x12_S7x12_0_0 : ∀ a, (![0, 0] : Fin 2 → Nat) a + S7x12.size a ≤ S7x12.size a
  h_S7x12 : 0 < S7x12.numel
  inb_S7x1_S7x1_0_0 : ∀ a, (![0, 0] : Fin 2 → Nat) a + S7x1.size a ≤ S7x1.size a
  h_S7x1 : 0 < S7x1.numel
  broadcasts_S7x1_S7x16384 : S7x1.Broadcasts S7x16384
  inb_S7x7_S7x7_0_0 : ∀ a, (![0, 0] : Fin 2 → Nat) a + S7x7.size a ≤ S7x7.size a
  h_S7x7 : 0 < S7x7.numel
  inb_S1x7_S1x7_0_0 : ∀ a, (![0, 0] : Fin 2 → Nat) a + S1x7.size a ≤ S1x7.size a
  h_S1x7 : 0 < S1x7.numel
  inb_S1x1_S1x1_0_0 : ∀ a, (![0, 0] : Fin 2 → Nat) a + S1x1.size a ≤ S1x1.size a
  h_S1x1 : 0 < S1x1.numel
  broadcasts_S1x1_S1x16384 : S1x1.Broadcasts S1x16384
  inb_S1x16384_S1x16384_0_0 : ∀ a, (![0, 0] : Fin 2 → Nat) a + S1x16384.size a ≤ S1x16384.size a
  h_S1x16384 : 0 < S1x16384.numel
  dot_S7x12_S12x16384_S7x16384_1_0_0_1_n_n_wf : DotDims.WF S7x12 S12x16384 S7x16384 [1] [0] [0] [1] [] []
  dot_S7x7_S7x16384_S7x16384_1_0_0_1_n_n_wf : DotDims.WF S7x7 S7x16384 S7x16384 [1] [0] [0] [1] [] []
  dot_S1x7_S7x16384_S1x16384_1_0_0_1_n_n_wf : DotDims.WF S1x7 S7x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x16384.size a ≤ S12x1048576.size a
  hwx0_0 : ∀ i : grid0.Coords, EltTy.bits .f32 = 32 ∨ (Rect.block (s := S12x1048576) S12x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x12.size a ≤ S7x12.size a
  hwx0_1 : ∀ i : grid0.Coords, EltTy.bits .f32 = 32 ∨ (Rect.block (s := S7x12) S7x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x1.size a ≤ S7x1.size a
  hwx0_2 : ∀ i : grid0.Coords, EltTy.bits .f32 = 32 ∨ (Rect.block (s := S7x1) S7x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x7.size a ≤ S7x7.size a
  hwx0_3 : ∀ i : grid0.Coords, EltTy.bits .f32 = 32 ∨ (Rect.block (s := S7x7) S7x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x1.size a ≤ S7x1.size a
  hwx0_4 : ∀ i : grid0.Coords, EltTy.bits .f32 = 32 ∨ (Rect.block (s := S7x1) S7x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x7.size a ≤ S1x7.size a
  hwx0_5 : ∀ i : grid0.Coords, EltTy.bits .f32 = 32 ∨ (Rect.block (s := S1x7) S1x7.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16384.size a ≤ S1x1048576.size a
  hwx0_7 : ∀ i : grid0.Coords, EltTy.bits .f32 = 32 ∨ (Rect.block (s := S1x1048576) S1x16384.size (cc0_transform_7 i) (hinb0_7 i)).WholeWords (EltTy.packing .f32)

variable [Facts₀]

def dot_S7x12_S12x16384_S7x16384_1_0_0_1_n_n : DotDims S7x12 S12x16384 S7x16384 where
  lhsContracting := [1]
  rhsContracting := [0]
  lhsNonContracting := [0]
  rhsNonContracting := [1]
  lhsBatch := []
  rhsBatch := []
  wf := dot_S7x12_S12x16384_S7x16384_1_0_0_1_n_n_wf
def dot_S7x7_S7x16384_S7x16384_1_0_0_1_n_n : DotDims S7x7 S7x16384 S7x16384 where
  lhsContracting := [1]
  rhsContracting := [0]
  lhsNonContracting := [0]
  rhsNonContracting := [1]
  lhsBatch := []
  rhsBatch := []
  wf := dot_S7x7_S7x16384_S7x16384_1_0_0_1_n_n_wf
def dot_S1x7_S7x16384_S1x16384_1_0_0_1_n_n : DotDims S1x7 S7x16384 S1x16384 where
  lhsContracting := [1]
  rhsContracting := [0]
  lhsNonContracting := [0]
  rhsNonContracting := [1]
  lhsBatch := []
  rhsBatch := []
  wf := dot_S1x7_S7x16384_S1x16384_1_0_0_1_n_n_wf

abbrev win0_0 : Pipeline.Window sig grid0 :=
  Pipeline.Window.ofSpec (Memref.whole main_call0_v0) S12x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S7x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S7x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S7x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S1x16384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.BitsBodyShared.lean ====
/-
  The kernel body's one branch and the buffers it is run on.

  The grid has ten points. The body's only conditional asks whether the point is the first one: there it clears
  its scratch and sets the scratch's last row to one. Stated here: that condition and its closed form over the
  grid, the staging buffers the body is handed at a point, the scratch as a buffer of its own, and the region's
  invariant with that scratch named.
-/
import proofs.«128126_g2000603897208126_pallasbulk_572_16_alg».proof.Proof.Gen.Kernel.Frame
import proofs.«128126_g2000603897208126_pallasbulk_572_16_alg».proof.Proof.Gen.Kernel.Skeleton
import Idealize.ShloMosaic.Lib.Pipeline.Frame
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one conditional, from the grid coordinate: "this is point 0". -/
abbrev cond0_0 (i : grid0.Coords) : Prop := (Scalar.cmpi .ne (Scalar.extui (Scalar.cmpi .eq (BitVec.ofNat 32 (i 0).val) 0#32)) 0#32) = 1#1
/-- It holds at point 0 and nowhere else: decided over the ten points. -/
theorem hcond0_0 : ∀ t : Fin cfg0.N, cond0_0 (grid0.coords t) ↔ t.val = 0 :=
  (by decide +kernel : ∀ t : Fin grid0.N, cond0_0 (grid0.coords t) ↔ t.val = 0)

/-- Each window's current staging buffer at point `t`, as the pipeline hands it to the body, and that it is whole. -/
abbrev ms0_0 (t : Fin cfg0.N) : Memref sig .tc .vmem S12x131072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7x12 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7x7 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S7x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S7x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x131072 .f32 := win0_7.stage (cfg0.slots t 7)
abbrev hs0_7 (t : Fin cfg0.N) : (ms0_7 t).IsWhole := hstage0_7 ((cfg0.slots t 7).cast nbuf0_7)
/-- The scratch: sixteen rows of 131072 lanes, a buffer of the kernel's own that outlives a grid point. -/
abbrev scM0_0 : Memref sig .tc .vmem S16x131072 .bf16 := Memref.whole cc0_scratch0
/-- The scratch as a view, through which its contents are stated. -/
abbrev VS0_0 : View sig .tc .vmem S16x131072 .bf16 := scM0_0.view
/-- One staging buffer of the output window, through which what the body leaves there is stated. -/
abbrev VO0_7 : View sig .tc .vmem S1x131072 .f32 := (Memref.whole cc0_stg7_0 : Memref sig .tc .vmem S1x131072 .f32).view

/-- The region's invariant before the first point and after the last: the scratch at some contents and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.BitsBodyFirst.lean ====
/-
  The body at the FIRST grid point, run once symbolically.

  At point 0 the conditional is taken: the scratch is cleared and its last row set to one before the two
  products are formed. Whatever the scratch and the output's staging buffer held before is overwritten, so the run
  starts from any contents of both. The result is a pair of lists of stores (latest first) — what the body leaves
  in the output's staging buffer and in the scratch — together with the proof that the body, started on whole
  buffers holding the seven input blocks, runs to its end with exactly those stores made.
-/
import proofs.«128126_g2000603897208126_pallasbulk_572_16_alg».proof.Proof.BitsBodyShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at the first point, found by running it, with the run itself. -/
noncomputable def kernelRun0_A (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) :
    Σ' (L7 : List (View.Piece (Elt F) S1x131072 .f32)), { LS0 : List (View.Piece (Elt F) S16x131072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9) K } := by
  refine ⟨?_, ?_, fun E K => ?run⟩
  case run =>
    simp only [cc0__mlp_body_eq_skeleton]; unfold cc0__mlp_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.Kernel.Body

end
-- ==== Proof.BitsBodyLater.lean ====
/-
  The body at a LATER grid point (any point but the first), run once symbolically.

  The conditional is not taken, and the scratch holds what the previous point left: its contents `xs0` are part of
  what the run starts from, since both products read them. The result is a pair of lists of stores (latest
  first) — what the body leaves in the output's staging buffer and in the scratch — together with the proof that
  the body, started on whole buffers holding the seven input blocks and the scratch at `xs0`, runs to its end with
  exactly those stores made.
-/
import proofs.«128126_g2000603897208126_pallasbulk_572_16_alg».proof.Proof.BitsBodyShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at a later point, found by running it, with the run itself. -/
noncomputable def kernelRun0_B (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (xs0 : Vec F S16x131072 .bf16) :
    Σ' (L7 : List (View.Piece (Elt F) S1x131072 .f32)), { LS0 : List (View.Piece (Elt F) S16x131072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9) K } := by
  refine ⟨?_, ?_, fun E K => ?run⟩
  case run =>
    simp only [cc0__mlp_body_eq_skeleton]; unfold cc0__mlp_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.Kernel.Body

end
-- ==== Proof.BitsFrame.lean ====
/-
  The kernel's run: every execution terminates, faults nowhere and leaves the argument arrays as they were.

  The kernel keeps a scratch of sixteen rows across its ten grid points, so what a point computes depends on what
  the point before left. The scratch's contents after each point are therefore defined by recursion on the point
  (`outsAt0`): the first point's stores over anything, a later point's stores over the previous contents; beside
  them, what the point leaves in the output's staging buffer. The region's invariant says the scratch holds
  exactly that between two points, and anything before the first and after the last. With the seven input windows
  each holding its block at every point, the body's run at the point's kind (first or later) discharges the
  pipeline's obligation, and the launch theorem for a region with a carried scratch and host operations around it
  gives the run of the whole program.
-/
import proofs.«128126_g2000603897208126_pallasbulk_572_16_alg».proof.Proof.BitsBodyFirst
import proofs.«128126_g2000603897208126_pallasbulk_572_16_alg».proof.Proof.BitsBodyLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two kinds of point leave -/

/-- The first point's one store into the output's staging buffer covers it. -/
theorem cover0_A_7 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (y : S1x131072.Idx) :
    ∃ pc ∈ (kernelRun0_A c i arg1 harg1 arg2 harg2 arg3 harg3 arg4 harg4 arg5 harg5 arg6 harg6 arg7 harg7 arg8 harg8 arg9 harg9 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5 x6).1 S1x131072.size (by sl_kernel_rfl) y

/-- What the first point leaves in the output's staging buffer: its store read back. -/
def out0_A_7 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) : Vec F S1x131072 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5 x6).1)

/-- The first point's stores into the scratch cover it: among them are the two blocks of eight rows. -/
theorem scover0_A_0 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (y : S16x131072.Idx) :
    ∃ pc ∈ (kernelRun0_A c i arg1 harg1 arg2 harg2 arg3 harg3 arg4 harg4 arg5 harg5 arg6 harg6 arg7 harg7 arg8 harg8 arg9 harg9 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5 x6).2.1 S8x131072.size (by sl_kernel_rfl) y

/-- What the first point leaves in the scratch: its stores read back. -/
def sout0_A_0 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) : Vec F S16x131072 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5 x6).2.1)

/-- A later point's one store into the output's staging buffer covers it. -/
theorem cover0_B_7 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (xs0 : Vec F S16x131072 .bf16) (y : S1x131072.Idx) :
    ∃ pc ∈ (kernelRun0_B c i arg1 harg1 arg2 harg2 arg3 harg3 arg4 harg4 arg5 harg5 arg6 harg6 arg7 harg7 arg8 harg8 arg9 harg9 hc0 x0 x1 x2 x3 x4 x5 x6 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 x6 xs0).1 S1x131072.size (by sl_kernel_rfl) y

/-- What a later point leaves in the output's staging buffer, given the scratch it found. -/
def out0_B_7 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (xs0 : Vec F S16x131072 .bf16) : Vec F S1x131072 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 x6 xs0).1)

/-- A later point's two stores into the scratch, rows 0‥7 and rows 8‥15, cover it. -/
theorem scover0_B_0 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (xs0 : Vec F S16x131072 .bf16) (y : S16x131072.Idx) :
    ∃ pc ∈ (kernelRun0_B c i arg1 harg1 arg2 harg2 arg3 harg3 arg4 harg4 arg5 harg5 arg6 harg6 arg7 harg7 arg8 harg8 arg9 harg9 hc0 x0 x1 x2 x3 x4 x5 x6 xs0).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 x6 xs0).2.1 S8x131072.size (by sl_kernel_rfl) y

/-- What a later point leaves in the scratch, given the scratch it found. -/
def sout0_B_0 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (xs0 : Vec F S16x131072 .bf16) : Vec F S16x131072 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 x6 xs0).2.1)

/-! ## The contents after each point, by recursion on the point -/

/-- What the output's staging buffer and the scratch hold after the body at point `n`: at point 0 the first
    point's stores; at point `n + 1` a later point's stores over the scratch point `n` left. -/
def outsAt0 (c : Dev nD) : (n : ℕ) → n < cfg0.N → Vec F S1x131072 .f32 × Vec F S16x131072 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn => (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

/-- `outsAt0` at the first point. -/
theorem outsAt0_A (c : Dev nD) (t : Fin cfg0.N) (h0 : t.val = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact absurd h0 (Nat.succ_ne_zero n)

/-- `outsAt0` at a later point: that point's stores over what the point before left. -/
theorem outsAt0_B (c : Dev nD) (t : Fin cfg0.N) (h0 : ¬t.val = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact absurd rfl h0
  | succ n => exact rfl

/-! ## The region's invariant -/

/-- Before point `n`: at `n = 0` the scratch holds anything; afterwards exactly what point `n - 1` left. The
    generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` every input's staging buffer still at its
    block and the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4800000 in
/-- The body at any point. The inputs' buffers hold their blocks; the point is the first or a later one; the
    invariant hands the body the scratch (at anything at the first point, at what the point before left
    otherwise) and takes it back at this point's contents; the output's staging buffer, whatever it held, ends at
    this point's store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4, after0_5, after0_6, after0_7]
  by_cases h0 : t.val = 0
  · rw [outsAt0_A m c t h0]
    unfold out0_A_7 sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _ _ _)
  · rw [outsAt0_B m c t h0]
    unfold out0_B_7 sout0_B_0; (try dsimp only)
    rw [PhiS_castSucc m c t, PhiS_pos m c _ _ h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 10 := N_0; omega)

/-! ## The run and the frame -/

set_option backward.isDefEq.respectTransparency.types false in
/-- Every weakly fair execution of the program terminates without a fault; at the end every array of the pipeline
    holds what the proof data computes and every other buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its seven argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.IdealBodyShared.lean ====
/-
  The kernel body's one branch and the buffers it is run on.

  The grid has ten points. The body's only conditional asks whether the point is the first one: there it clears
  its scratch and sets the scratch's last row to one. Stated here: that condition and its closed form over the
  grid, the staging buffers the body is handed at a point, the scratch as a buffer of its own, and the region's
  invariant with that scratch named.
-/
import proofs.«128126_g2000603897208126_pallasbulk_572_16_alg».proof.Proof.Gen.KernelIdeal.Frame
import proofs.«128126_g2000603897208126_pallasbulk_572_16_alg».proof.Proof.Gen.KernelIdeal.Skeleton
import Idealize.ShloMosaic.Lib.Pipeline.Frame
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one conditional, from the grid coordinate: "this is point 0". -/
abbrev cond0_0 (i : grid0.Coords) : Prop := (Scalar.cmpi .ne (Scalar.extui (Scalar.cmpi .eq (BitVec.ofNat 32 (i 0).val) 0#32)) 0#32) = 1#1
/-- It holds at point 0 and nowhere else: decided over the ten points. -/
theorem hcond0_0 : ∀ t : Fin cfg0.N, cond0_0 (grid0.coords t) ↔ t.val = 0 :=
  (by decide +kernel : ∀ t : Fin grid0.N, cond0_0 (grid0.coords t) ↔ t.val = 0)

/-- Each window's current staging buffer at point `t`, as the pipeline hands it to the body, and that it is whole. -/
abbrev ms0_0 (t : Fin cfg0.N) : Memref sig .tc .vmem S12x131072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7x12 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7x7 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S7x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S7x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x131072 .f32 := win0_7.stage (cfg0.slots t 7)
abbrev hs0_7 (t : Fin cfg0.N) : (ms0_7 t).IsWhole := hstage0_7 ((cfg0.slots t 7).cast nbuf0_7)
/-- The scratch: sixteen rows of 131072 lanes, a buffer of the kernel's own that outlives a grid point. -/
abbrev scM0_0 : Memref sig .tc .vmem S16x131072 .bf16 := Memref.whole cc0_scratch0
/-- The scratch as a view, through which its contents are stated. -/
abbrev VS0_0 : View sig .tc .vmem S16x131072 .bf16 := scM0_0.view
/-- One staging buffer of the output window, through which what the body leaves there is stated. -/
abbrev VO0_7 : View sig .tc .vmem S1x131072 .f32 := (Memref.whole cc0_stg7_0 : Memref sig .tc .vmem S1x131072 .f32).view

/-- The region's invariant before the first point and after the last: the scratch at some contents and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.IdealBodyFirst.lean ====
/-
  The body at the FIRST grid point, run once symbolically.

  At point 0 the conditional is taken: the scratch is cleared and its last row set to one before the two
  products are formed. Whatever the scratch and the output's staging buffer held before is overwritten, so the run
  starts from any contents of both. The result is a pair of lists of stores (latest first) — what the body leaves
  in the output's staging buffer and in the scratch — together with the proof that the body, started on whole
  buffers holding the seven input blocks, runs to its end with exactly those stores made.
-/
import proofs.«128126_g2000603897208126_pallasbulk_572_16_alg».proof.Proof.IdealBodyShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at the first point, found by running it, with the run itself. -/
noncomputable def kernelRun0_A (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) :
    Σ' (L7 : List (View.Piece (Elt F) S1x131072 .f32)), { LS0 : List (View.Piece (Elt F) S16x131072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9) K } := by
  refine ⟨?_, ?_, fun E K => ?run⟩
  case run =>
    simp only [cc0__mlp_body_eq_skeleton]; unfold cc0__mlp_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.KernelIdeal.Body

end
-- ==== Proof.IdealBodyLater.lean ====
/-
  The body at a LATER grid point (any point but the first), run once symbolically.

  The conditional is not taken, and the scratch holds what the previous point left: its contents `xs0` are part of
  what the run starts from, since both products read them. The result is a pair of lists of stores (latest
  first) — what the body leaves in the output's staging buffer and in the scratch — together with the proof that
  the body, started on whole buffers holding the seven input blocks and the scratch at `xs0`, runs to its end with
  exactly those stores made.
-/
import proofs.«128126_g2000603897208126_pallasbulk_572_16_alg».proof.Proof.IdealBodyShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at a later point, found by running it, with the run itself. -/
noncomputable def kernelRun0_B (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (xs0 : Vec F S16x131072 .bf16) :
    Σ' (L7 : List (View.Piece (Elt F) S1x131072 .f32)), { LS0 : List (View.Piece (Elt F) S16x131072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9) K } := by
  refine ⟨?_, ?_, fun E K => ?run⟩
  case run =>
    simp only [cc0__mlp_body_eq_skeleton]; unfold cc0__mlp_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.KernelIdeal.Body

end
-- ==== Proof.IdealFrame.lean ====
/-
  The kernel's run: every execution terminates, faults nowhere and leaves the argument arrays as they were.

  The kernel keeps a scratch of sixteen rows across its ten grid points, so what a point computes depends on what
  the point before left. The scratch's contents after each point are therefore defined by recursion on the point
  (`outsAt0`): the first point's stores over anything, a later point's stores over the previous contents; beside
  them, what the point leaves in the output's staging buffer. The region's invariant says the scratch holds
  exactly that between two points, and anything before the first and after the last. With the seven input windows
  each holding its block at every point, the body's run at the point's kind (first or later) discharges the
  pipeline's obligation, and the launch theorem for a region with a carried scratch and host operations around it
  gives the run of the whole program.
-/
import proofs.«128126_g2000603897208126_pallasbulk_572_16_alg».proof.Proof.IdealBodyFirst
import proofs.«128126_g2000603897208126_pallasbulk_572_16_alg».proof.Proof.IdealBodyLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two kinds of point leave -/

/-- The first point's one store into the output's staging buffer covers it. -/
theorem cover0_A_7 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (y : S1x131072.Idx) :
    ∃ pc ∈ (kernelRun0_A c i arg1 harg1 arg2 harg2 arg3 harg3 arg4 harg4 arg5 harg5 arg6 harg6 arg7 harg7 arg8 harg8 arg9 harg9 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5 x6).1 S1x131072.size (by sl_kernel_rfl) y

/-- What the first point leaves in the output's staging buffer: its store read back. -/
def out0_A_7 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) : Vec F S1x131072 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5 x6).1)

/-- The first point's stores into the scratch cover it: among them are the two blocks of eight rows. -/
theorem scover0_A_0 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (y : S16x131072.Idx) :
    ∃ pc ∈ (kernelRun0_A c i arg1 harg1 arg2 harg2 arg3 harg3 arg4 harg4 arg5 harg5 arg6 harg6 arg7 harg7 arg8 harg8 arg9 harg9 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5 x6).2.1 S8x131072.size (by sl_kernel_rfl) y

/-- What the first point leaves in the scratch: its stores read back. -/
def sout0_A_0 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) : Vec F S16x131072 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5 x6).2.1)

/-- A later point's one store into the output's staging buffer covers it. -/
theorem cover0_B_7 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (xs0 : Vec F S16x131072 .bf16) (y : S1x131072.Idx) :
    ∃ pc ∈ (kernelRun0_B c i arg1 harg1 arg2 harg2 arg3 harg3 arg4 harg4 arg5 harg5 arg6 harg6 arg7 harg7 arg8 harg8 arg9 harg9 hc0 x0 x1 x2 x3 x4 x5 x6 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 x6 xs0).1 S1x131072.size (by sl_kernel_rfl) y

/-- What a later point leaves in the output's staging buffer, given the scratch it found. -/
def out0_B_7 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (xs0 : Vec F S16x131072 .bf16) : Vec F S1x131072 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 x6 xs0).1)

/-- A later point's two stores into the scratch, rows 0‥7 and rows 8‥15, cover it. -/
theorem scover0_B_0 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (xs0 : Vec F S16x131072 .bf16) (y : S16x131072.Idx) :
    ∃ pc ∈ (kernelRun0_B c i arg1 harg1 arg2 harg2 arg3 harg3 arg4 harg4 arg5 harg5 arg6 harg6 arg7 harg7 arg8 harg8 arg9 harg9 hc0 x0 x1 x2 x3 x4 x5 x6 xs0).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 x6 xs0).2.1 S8x131072.size (by sl_kernel_rfl) y

/-- What a later point leaves in the scratch, given the scratch it found. -/
def sout0_B_0 (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
    (x0 : Vec F S12x131072 .f32) (x1 : Vec F S7x12 .f32) (x2 : Vec F S7x7 .f32) (x3 : Vec F S1x7 .f32) (x4 : Vec F S7x1 .f32) (x5 : Vec F S7x1 .f32) (x6 : Vec F S1x1 .f32) (xs0 : Vec F S16x131072 .bf16) : Vec F S16x131072 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 x6 xs0).2.1)

/-! ## The contents after each point, by recursion on the point -/

/-- What the output's staging buffer and the scratch hold after the body at point `n`: at point 0 the first
    point's stores; at point `n + 1` a later point's stores over the scratch point `n` left. -/
def outsAt0 (c : Dev nD) : (n : ℕ) → n < cfg0.N → Vec F S1x131072 .f32 × Vec F S16x131072 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn => (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

/-- `outsAt0` at the first point. -/
theorem outsAt0_A (c : Dev nD) (t : Fin cfg0.N) (h0 : t.val = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact absurd h0 (Nat.succ_ne_zero n)

/-- `outsAt0` at a later point: that point's stores over what the point before left. -/
theorem outsAt0_B (c : Dev nD) (t : Fin cfg0.N) (h0 : ¬t.val = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact absurd rfl h0
  | succ n => exact rfl

/-! ## The region's invariant -/

/-- Before point `n`: at `n = 0` the scratch holds anything; afterwards exactly what point `n - 1` left. The
    generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` every input's staging buffer still at its
    block and the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4800000 in
/-- The body at any point. The inputs' buffers hold their blocks; the point is the first or a later one; the
    invariant hands the body the scratch (at anything at the first point, at what the point before left
    otherwise) and takes it back at this point's contents; the output's staging buffer, whatever it held, ends at
    this point's store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4, after0_5, after0_6, after0_7]
  by_cases h0 : t.val = 0
  · rw [outsAt0_A m c t h0]
    unfold out0_A_7 sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _ _ _)
  · rw [outsAt0_B m c t h0]
    unfold out0_B_7 sout0_B_0; (try dsimp only)
    rw [PhiS_castSucc m c t, PhiS_pos m c _ _ h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 10 := N_0; omega)

/-! ## The run and the frame -/

set_option backward.isDefEq.respectTransparency.types false in
/-- Every weakly fair execution of the program terminates without a fault; at the end every array of the pipeline
    holds what the proof data computes and every other buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its seven argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.IdealBlocks.lean ====
/-
  Where each window's block sits in its array, point by point.

  The ten grid points read the feature columns in eight blocks of 131072: point `t` reads block `min t 7` (the last
  two points, which only drain the pipeline, read the last block again). The six weight and bias windows are the
  whole of their small arrays at every point. The output window at point `t` is block `t - 2` of the logits (block 0
  at the first three points), and it is written back exactly at the points `t ≥ 2`. All of this is decided once over
  the ten points from the printed index maps; a block's entry `(a, q)` is then the array's entry at
  `index × size + coordinate` on each axis.
-/
import proofs.«128126_g2000603897208126_pallasbulk_572_16_alg».proof.Proof.IdealFrame
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The printed index maps over the ten points: the feature window moves with `min t 7`, the six small windows
    stay at block 0, the output window is at `t - 2` (natural subtraction). -/
theorem idx_facts : ∀ t : Fin cfg0.N,
    win0_0.index t (0 : Fin 2) = 0 ∧ win0_0.index t (1 : Fin 2) = min t.val 7
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val - 2 :=
  (by decide +kernel : ∀ t : Fin grid0.N, _)

/-- The output window is written back exactly from point 2 on. -/
theorem flush0_7 : ∀ t : Fin cfg0.N, (cfg0.win 7).flush t = true ↔ 2 ≤ t.val :=
  (by decide +kernel : ∀ t : Fin grid0.N, win0_7.flush t = true ↔ 2 ≤ t.val)

/-- Column `q` of block `b` of the 1,048,576 columns. -/
abbrev col (b : ℕ) (hb : b ≤ 7) (q : Fin 131072) : Fin 1048576 := ⟨b * 131072 + q.val, by have := q.isLt; omega⟩

/-- The feature block at point `t`: entry `(i, q)` is feature `i` of column `q` of block `min t 7`. -/
theorem iblk0_apply (c : Dev nD) (t : Fin cfg0.N) (i : Fin 12) (q : Fin 131072) :
    iblk m c 0 t (ix2 i q) = V m c main_call0_v0 (ix2 i (col (min t.val 7) (Nat.min_le_right _ _) q)) := by
  obtain ⟨e0, e1, -⟩ := idx_facts t
  show V m c main_call0_v0 (((cfg0.win 0).blk t).view.emb (ix2 i q)) = _
  refine congrArg _ ?_
  funext a; apply Fin.ext
  match a with
  | ⟨0, _⟩ => show win0_0.index t (0 : Fin 2) * 12 + 1 * i.val = i.val; omega
  | ⟨1, _⟩ => show win0_0.index t (1 : Fin 2) * 131072 + 1 * q.val = min t.val 7 * 131072 + q.val; rw [e1]; omega

/-- Window 1's block is the whole of its array at every point. -/
theorem iblk1_apply (c : Dev nD) (t : Fin cfg0.N) (a0 : Fin 7) (a1 : Fin 12) :
    iblk m c 1 t (ix2 a0 a1) = V m c main_arg1 (ix2 a0 a1) := by
  obtain ⟨-, -, e0, e1, -⟩ := idx_facts t
  show V m c main_arg1 (((cfg0.win 1).blk t).view.emb (ix2 a0 a1)) = _
  refine congrArg _ ?_
  funext a; apply Fin.ext
  match a with
  | ⟨0, _⟩ => show win0_1.index t (0 : Fin 2) * 7 + 1 * a0.val = a0.val; omega
  | ⟨1, _⟩ => show win0_1.index t (1 : Fin 2) * 12 + 1 * a1.val = a1.val; omega

/-- Window 2's block is the whole of its array at every point. -/
theorem iblk2_apply (c : Dev nD) (t : Fin cfg0.N) (a0 : Fin 7) (a1 : Fin 7) :
    iblk m c 2 t (ix2 a0 a1) = V m c main_arg3 (ix2 a0 a1) := by
  obtain ⟨-, -, -, -, e0, e1, -⟩ := idx_facts t
  show V m c main_arg3 (((cfg0.win 2).blk t).view.emb (ix2 a0 a1)) = _
  refine congrArg _ ?_
  funext a; apply Fin.ext
  match a with
  | ⟨0, _⟩ => show win0_2.index t (0 : Fin 2) * 7 + 1 * a0.val = a0.val; omega
  | ⟨1, _⟩ => show win0_2.index t (1 : Fin 2) * 7 + 1 * a1.val = a1.val; omega

/-- Window 3's block is the whole of its array at every point. -/
theorem iblk3_apply (c : Dev nD) (t : Fin cfg0.N) (a0 : Fin 1) (a1 : Fin 7) :
    iblk m c 3 t (ix2 a0 a1) = V m c main_arg5 (ix2 a0 a1) := by
  obtain ⟨-, -, -, -, -, -, e0, e1, -⟩ := idx_facts t
  show V m c main_arg5 (((cfg0.win 3).blk t).view.emb (ix2 a0 a1)) = _
  refine congrArg _ ?_
  funext a; apply Fin.ext
  match a with
  | ⟨0, _⟩ => show win0_3.index t (0 : Fin 2) * 1 + 1 * a0.val = a0.val; omega
  | ⟨1, _⟩ => show win0_3.index t (1 : Fin 2) * 7 + 1 * a1.val = a1.val; omega

/-- Window 4's block is the whole of its array at every point. -/
theorem iblk4_apply (c : Dev nD) (t : Fin cfg0.N) (a0 : Fin 7) (a1 : Fin 1) :
    iblk m c 4 t (ix2 a0 a1) = V m c main_arg2 (ix2 a0 a1) := by
  obtain ⟨-, -, -, -, -, -, -, -, e0, e1, -⟩ := idx_facts t
  show V m c main_arg2 (((cfg0.win 4).blk t).view.emb (ix2 a0 a1)) = _
  refine congrArg _ ?_
  funext a; apply Fin.ext
  match a with
  | ⟨0, _⟩ => show win0_4.index t (0 : Fin 2) * 7 + 1 * a0.val = a0.val; omega
  | ⟨1, _⟩ => show win0_4.index t (1 : Fin 2) * 1 + 1 * a1.val = a1.val; omega

/-- Window 5's block is the whole of its array at every point. -/
theorem iblk5_apply (c : Dev nD) (t : Fin cfg0.N) (a0 : Fin 7) (a1 : Fin 1) :
    iblk m c 5 t (ix2 a0 a1) = V m c main_arg4 (ix2 a0 a1) := by
  obtain ⟨-, -, -, -, -, -, -, -, -, -, e0, e1, -⟩ := idx_facts t
  show V m c main_arg4 (((cfg0.win 5).blk t).view.emb (ix2 a0 a1)) = _
  refine congrArg _ ?_
  funext a; apply Fin.ext
  match a with
  | ⟨0, _⟩ => show win0_5.index t (0 : Fin 2) * 7 + 1 * a0.val = a0.val; omega
  | ⟨1, _⟩ => show win0_5.index t (1 : Fin 2) * 1 + 1 * a1.val = a1.val; omega

/-- Window 6's block is the whole of its array at every point. -/
theorem iblk6_apply (c : Dev nD) (t : Fin cfg0.N) (a0 : Fin 1) (a1 : Fin 1) :
    iblk m c 6 t (ix2 a0 a1) = V m c main_arg6 (ix2 a0 a1) := by
  obtain ⟨-, -, -, -, -, -, -, -, -, -, -, -, e0, e1, -⟩ := idx_facts t
  show V m c main_arg6 (((cfg0.win 6).blk t).view.emb (ix2 a0 a1)) = _
  refine congrArg _ ?_
  funext a; apply Fin.ext
  match a with
  | ⟨0, _⟩ => show win0_6.index t (0 : Fin 2) * 1 + 1 * a0.val = a0.val; omega
  | ⟨1, _⟩ => show win0_6.index t (1 : Fin 2) * 1 + 1 * a1.val = a1.val; omega

end Cert.KernelIdeal.Body

end
-- ==== Proof.KPayBasic.lean ====
import proofs.«128126_g2000603897208126_pallasbulk_572_16_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! # The pointwise payloads of the perceptron body, read at an index

At the ideal values every float is an extended real and a narrowing conversion is the identity, so
the payloads that only combine entries pointwise are a maximum, a constant, or an entry of the
operand at a shifted row. This module states those facts at explicit coordinates, together with the
two bit patterns the body uses (the bf16 zero and the bf16 one) and the two row blends
(a 7-row value written into rows 0..6 of an 8-row one; a 1-row value written into row 1 of a 2-row one). -/

noncomputable section

namespace Cert.KernelIdeal.KPay

open Cert.KernelIdeal Cert.KernelIdeal.Gen
open Idealize.ShloMosaic Idealize.ShloMosaic.ValueIdx

/-! ## The two bf16 constants -/

/-- The bf16 pattern of all zero bits denotes the extended real `0`. -/
theorem ofBits_zero_bf16 : Ideal.ofBits .bf16 0x0000#16 = 0 := by simp [Ideal.ofBits, Ideal.ieee]

/-- The bf16 pattern `0x3F80` (sign 0, biased exponent 127, significand 0) denotes `1`. -/
theorem ofBits_one_bf16 : Ideal.ofBits .bf16 0x3F80#16 = 1 := by
  simp [Ideal.ofBits, Ideal.ieee, -EReal.coe_mul]; norm_num

/-! ## Constant payloads -/

/-- The scratch initialiser is `0` at every index. -/
theorem pay3_apply (j : S16x131072.Idx) : k0_pay3 (F := Ideal) j = 0 := by
  unfold k0_pay3
  rw [shapeCast_self]
  exact ofBits_zero_bf16

/-- The row of ones is `1` at every index. -/
theorem pay4_apply (j : S1x131072.Idx) : k0_pay4 (F := Ideal) j = 1 := by
  unfold k0_pay4
  rw [shapeCast_self]
  exact ofBits_one_bf16

/-- The zero splat the layer-0 activation is clamped against is `0` at every index. -/
theorem pay8_apply (j : S7x131072.Idx) : k0_pay8 (F := Ideal) j = 0 := by
  unfold k0_pay8
  exact ofBits_zero_bf16

/-! ## Pointwise maxima -/

/-- The stored layer-0 activation is the pointwise maximum of its two operands. -/
theorem pay1_apply (v30 v31 : FVec Ideal S7x131072 .bf16) (j : S7x131072.Idx) :
    k0_pay1 v30 v31 j = max (v30 j) (v31 j) := by
  unfold k0_pay1
  rw [shapeCast_self]
  rfl

/-- The stored layer-1 activation at row `k`, column `q`: the product's entry at the same row and column,
    clamped below at `0`. -/
theorem pay2_apply (v23 : FVec Ideal S8x131072 .f32) (k : Fin 7) (q : Fin 131072) :
    k0_pay2 v23 (ix2 k q) = max (v23 (ix2 (⟨k.val, by omega⟩ : Fin 8) q)) 0 := by
  unfold k0_pay2
  rw [shapeCast_self]
  show max (extractStridedSlice S7x131072 ![0, 0] v23 slices_S8x131072_o0_0_S7x131072 (ix2 k q))
      (Ideal.ofBits .f32 0x00000000#32) = _
  rw [Ideal.ofBits_zero_f32]
  refine congrArg (fun t => max t (0 : EReal)) ?_
  refine extractStridedSlice_apply _ _ _ (ix2 k q) (ix2 (⟨k.val, by omega⟩ : Fin 8) q) fun a => ?_
  match a with
  | ⟨0, _⟩ => show k.val = 0 + k.val; omega
  | ⟨1, _⟩ => show q.val = 0 + q.val; omega

/-! ## The row blends -/

/-- A 7-row value written at offsets (0, 0) into an 8-row one: rows 0..6 are the new value's, row 7 is kept. -/
theorem updateSlice8_apply (old : S8x131072.Idx → Ideal .bf16) (v : S7x131072.Idx → Ideal .bf16)
    (r : Fin 8) (q : Fin 131072) :
    updateSlice old v ![0, 0] slices_S8x131072_S7x131072_0_0 (ix2 r q)
      = if h : r.val < 7 then v (ix2 (⟨r.val, h⟩ : Fin 7) q) else old (ix2 r q) := by
  unfold updateSlice
  by_cases h : r.val < 7
  · rw [dif_pos h, dif_pos]
    · refine congrArg v (funext fun b => Fin.ext ?_)
      match b with
      | ⟨0, _⟩ => show r.val - 0 = r.val; omega
      | ⟨1, _⟩ => show q.val - 0 = q.val; omega
    · intro a
      match a with
      | ⟨0, _⟩ => exact ⟨Nat.zero_le _, show r.val < 0 + 7 by omega⟩
      | ⟨1, _⟩ => exact ⟨Nat.zero_le _, show q.val < 0 + 131072 by have := q.isLt; omega⟩
  · rw [dif_neg h, dif_neg]
    intro hin
    have h0 := (hin ⟨0, by decide⟩).2
    have h0' : r.val < 0 + 7 := h0
    omega

/-- A 1-row value written at offsets (1, 0) into a 2-row one: row 1 is the new value's, row 0 is kept. -/
theorem updateSlice2_apply (old : S2x131072.Idx → Ideal .bf16) (v : S1x131072.Idx → Ideal .bf16)
    (r : Fin 2) (q : Fin 131072) :
    updateSlice old v ![1, 0] slices_S2x131072_S1x131072_1_0 (ix2 r q)
      = if r.val = 1 then v (ix2 (0 : Fin 1) q) else old (ix2 r q) := by
  unfold updateSlice
  by_cases h : r.val = 1
  · rw [if_pos h, dif_pos]
    · refine congrArg v (funext fun b => Fin.ext ?_)
      match b with
      | ⟨0, _⟩ => show r.val - 1 = 0; omega
      | ⟨1, _⟩ => show q.val - 0 = q.val; omega
    · intro a
      match a with
      | ⟨0, _⟩ => exact ⟨show 1 ≤ r.val by omega, show r.val < 1 + 1 by omega⟩
      | ⟨1, _⟩ => exact ⟨Nat.zero_le _, show q.val < 0 + 131072 by have := q.isLt; omega⟩
  · rw [if_neg h, dif_neg]
    intro hin
    have h0 := (hin ⟨0, by decide⟩).1
    have h0' : 1 ≤ r.val := h0
    have := r.isLt
    omega

end Cert.KernelIdeal.KPay

end
-- ==== Proof.IdealRows.lean ====
/-
  The scratch and the output block after one grid point, read entry by entry at the ideal floats.

  A later point (any but the first) finds the scratch at contents `xs0` and leaves:
    rows 0‥6   the first layer of the point's own block of columns, `max (W0·x + b0, 0)` (one payload, floored at zero);
    row  7     as it was;
    rows 8‥14  the stacked product's rows 0‥6 applied to `xs0`, floored at zero;
    row  15    as it was;
  and stores the stacked product's row 7, applied to `xs0`, as the output block.
  The first point leaves the same rows 0‥6, and a row 15 of ones (it has just been set to one by the
  initialisation, and the later store over rows 8‥15 keeps its eighth row).
  Each statement follows the list of stores newest first: an entry under the newest store's rows reads that
  store's payload, any other entry what the earlier stores left.
-/
import proofs.«128126_g2000603897208126_pallasbulk_572_16_alg».proof.Proof.IdealFrame
import proofs.«128126_g2000603897208126_pallasbulk_572_16_alg».proof.Proof.KPayBasic
import Idealize.ShloMosaic.Lib.Pipeline.Value
import Idealize.ShloMosaic.Lib.ValueIdx

set_option maxRecDepth 16384

noncomputable section

namespace Cert.KernelIdeal.Rows

open Cert.KernelIdeal Cert.KernelIdeal.Gen Idealize.ShloMosaic Idealize.ShloMosaic.ValueIdx

variable {Val : EltTy → Type} [∀ e, Nonempty (Val e)]

/-- Rows 0‥7 of the scratch, rows 8‥15, and its last two rows, as rectangles of whole rows. -/
abbrev rLo : Rect S16x131072 := Rect.unit (s := S16x131072) ![0, 0] S8x131072.size inb_S16x131072_S8x131072_0_0
abbrev rHi : Rect S16x131072 := Rect.unit (s := S16x131072) ![8, 0] S8x131072.size inb_S16x131072_S8x131072_8_0
abbrev rTail : Rect S16x131072 := Rect.unit (s := S16x131072) ![14, 0] S2x131072.size inb_S16x131072_S2x131072_14_0

theorem emb_hi (r : Fin 8) (q : Fin 131072) : rHi.emb (ix2 r q) = ix2 (⟨8 + r.val, by omega⟩ : Fin 16) q :=
  funext fun a => Fin.ext (by
    match a with
    | ⟨0, _⟩ => show 8 + 1 * r.val = 8 + r.val; omega
    | ⟨1, _⟩ => show 0 + 1 * q.val = q.val; omega)
theorem emb_lo (r : Fin 8) (q : Fin 131072) : rLo.emb (ix2 r q) = ix2 (⟨r.val, by omega⟩ : Fin 16) q :=
  funext fun a => Fin.ext (by
    match a with
    | ⟨0, _⟩ => show 0 + 1 * r.val = r.val; omega
    | ⟨1, _⟩ => show 0 + 1 * q.val = q.val; omega)
theorem emb_tail (r : Fin 2) (q : Fin 131072) : rTail.emb (ix2 r q) = ix2 (⟨14 + r.val, by omega⟩ : Fin 16) q :=
  funext fun a => Fin.ext (by
    match a with
    | ⟨0, _⟩ => show 14 + 1 * r.val = 14 + r.val; omega
    | ⟨1, _⟩ => show 0 + 1 * q.val = q.val; omega)

/-- Newest store first. Under a newest store of rows 8‥15, row `8 + r` reads its payload's row `r`; -/
theorem canon_hi (w : rHi.shape.Idx → Val .bf16) (L : List (View.Piece Val S16x131072 .bf16)) (r : Fin 8) (q : Fin 131072) :
    View.canon ((⟨rHi, w⟩ : View.Piece Val S16x131072 .bf16) :: L) (ix2 (⟨8 + r.val, by omega⟩ : Fin 16) q) = w (ix2 r q) := by
  rw [← emb_hi r q]; exact View.canon_cons_emb rHi w L (ix2 r q)
/-- a row below 8 reads what the earlier stores left. -/
theorem canon_skip_hi (w : rHi.shape.Idx → Val .bf16) (L : List (View.Piece Val S16x131072 .bf16)) (r : Fin 16) (hr : r.val < 8) (q : Fin 131072) :
    View.canon ((⟨rHi, w⟩ : View.Piece Val S16x131072 .bf16) :: L) (ix2 r q) = View.canon L (ix2 r q) := by
  refine View.canon_cons_of_not_mem _ L ?_
  show ix2 r q ∉ rHi.set
  rw [Rect.mem_set_unit]
  intro hall
  have h0 : 8 ≤ r.val ∧ r.val < 8 + 8 := hall 0
  omega
/-- Under a newest store of rows 0‥7, row `r` reads its payload's row `r`; -/
theorem canon_lo (w : rLo.shape.Idx → Val .bf16) (L : List (View.Piece Val S16x131072 .bf16)) (r : Fin 8) (q : Fin 131072) :
    View.canon ((⟨rLo, w⟩ : View.Piece Val S16x131072 .bf16) :: L) (ix2 (⟨r.val, by omega⟩ : Fin 16) q) = w (ix2 r q) := by
  rw [← emb_lo r q]; exact View.canon_cons_emb rLo w L (ix2 r q)
/-- a row from 8 on reads what the earlier stores left. -/
theorem canon_skip_lo (w : rLo.shape.Idx → Val .bf16) (L : List (View.Piece Val S16x131072 .bf16)) (r : Fin 16) (hr : 8 ≤ r.val) (q : Fin 131072) :
    View.canon ((⟨rLo, w⟩ : View.Piece Val S16x131072 .bf16) :: L) (ix2 r q) = View.canon L (ix2 r q) := by
  refine View.canon_cons_of_not_mem _ L ?_
  show ix2 r q ∉ rLo.set
  rw [Rect.mem_set_unit]
  intro hall
  have h0 : 0 ≤ r.val ∧ r.val < 0 + 8 := hall 0
  omega
/-- Under a newest store of rows 14‥15, row `14 + r` reads its payload's row `r`. -/
theorem canon_tail (w : rTail.shape.Idx → Val .bf16) (L : List (View.Piece Val S16x131072 .bf16)) (r : Fin 2) (q : Fin 131072) :
    View.canon ((⟨rTail, w⟩ : View.Piece Val S16x131072 .bf16) :: L) (ix2 (⟨14 + r.val, by omega⟩ : Fin 16) q) = w (ix2 r q) := by
  rw [← emb_tail r q]; exact View.canon_cons_emb rTail w L (ix2 r q)

end Cert.KernelIdeal.Rows

namespace Cert.KernelIdeal.Body

open Cert.KernelIdeal Cert.KernelIdeal.Gen Cert.KernelIdeal.KPay Cert.KernelIdeal.Rows
open Idealize.ShloMosaic Idealize.ShloMosaic.TcCoe Idealize.ShloMosaic.Tactic Idealize.ShloMosaic.ValueIdx
open Idealize.SL Idealize.SL.Sem

theorem hz2 : (![0, 0] : Fin 2 → Nat) = fun _ => 0 := funext fun a => by fin_cases a <;> rfl

section Later

variable (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : ¬cond0_0 i)
  (x0 : Vec Ideal S12x131072 .f32) (x1 : Vec Ideal S7x12 .f32) (x2 : Vec Ideal S7x7 .f32) (x3 : Vec Ideal S1x7 .f32) (x4 : Vec Ideal S7x1 .f32) (x5 : Vec Ideal S7x1 .f32) (x6 : Vec Ideal S1x1 .f32) (xs0 : Vec Ideal S16x131072 .bf16)

/-- Rows 0‥6 after a later point: the first layer of the point's own block, floored at zero. -/
theorem later_low (k : Fin 7) (q : Fin 131072) :
    sout0_B_0 (F := Ideal) c i arg1 harg1 arg2 harg2 arg3 harg3 arg4 harg4 arg5 harg5 arg6 harg6 arg7 harg7 arg8 harg8 arg9 harg9 hc0 x0 x1 x2 x3 x4 x5 x6 xs0 (ix2 (⟨k.val, by omega⟩ : Fin 16) q)
      = max (k0_pay7 x0 x1 x4 (ix2 k q)) 0 := by
  unfold sout0_B_0
  rw [View.read_writes_junk_eq_canon]
  unfold kernelRun0_B; dsimp only; sl_unfold_words
  refine (canon_skip_hi _ _ (⟨k.val, by omega⟩ : Fin 16) (by show k.val < 8; omega) q).trans ?_
  refine (canon_lo _ _ (⟨k.val, by omega⟩ : Fin 8) q).trans ?_
  rw [updateSlice8_apply, dif_pos (show k.val < 7 from k.isLt), pay1_apply, pay8_apply]
  simp only [View.readAt_eq_ld, harg1.read_unread, harg2.read_unread, harg5.read_unread,
    View.ld_unit_zero (S := S12x131072) hz2, View.ld_unit_zero (S := S7x12) hz2, View.ld_unit_zero (S := S7x1) hz2]

/-- Rows 8‥14 after a later point: rows 0‥6 of the stacked product applied to the scratch as found, floored at zero. -/
theorem later_high (j : Fin 7) (q : Fin 131072) :
    sout0_B_0 (F := Ideal) c i arg1 harg1 arg2 harg2 arg3 harg3 arg4 harg4 arg5 harg5 arg6 harg6 arg7 harg7 arg8 harg8 arg9 harg9 hc0 x0 x1 x2 x3 x4 x5 x6 xs0 (ix2 (⟨8 + j.val, by omega⟩ : Fin 16) q)
      = max (k0_pay5 x2 x3 x5 x6 xs0 (ix2 (⟨j.val, by omega⟩ : Fin 8) q)) 0 := by
  unfold sout0_B_0
  rw [View.read_writes_junk_eq_canon]
  unfold kernelRun0_B; dsimp only; sl_unfold_words
  refine (canon_hi _ _ (⟨j.val, by omega⟩ : Fin 8) q).trans ?_
  rw [updateSlice8_apply, dif_pos (show j.val < 7 from j.isLt), pay2_apply]
  simp only [View.readAt_eq_ld, harg3.read_unread, harg4.read_unread, harg6.read_unread, harg7.read_unread, harg9.read_unread,
    View.ld_unit_zero (S := S7x7) hz2, View.ld_unit_zero (S := S1x7) hz2, View.ld_unit_zero (S := S7x1) hz2,
    View.ld_unit_zero (S := S1x1) hz2, View.ld_unit_zero (S := S16x131072) hz2]

/-- Row 15 after a later point is row 15 before it. -/
theorem later_last (q : Fin 131072) :
    sout0_B_0 (F := Ideal) c i arg1 harg1 arg2 harg2 arg3 harg3 arg4 harg4 arg5 harg5 arg6 harg6 arg7 harg7 arg8 harg8 arg9 harg9 hc0 x0 x1 x2 x3 x4 x5 x6 xs0 (ix2 (15 : Fin 16) q) = xs0 (ix2 (15 : Fin 16) q) := by
  unfold sout0_B_0
  rw [View.read_writes_junk_eq_canon]
  unfold kernelRun0_B; dsimp only; sl_unfold_words
  refine (canon_hi _ _ (7 : Fin 8) q).trans ?_
  rw [updateSlice8_apply, dif_neg (by decide)]
  simp only [View.readAt_eq_ld, harg9.read_unread]
  show xs0 (rHi.emb (ix2 (7 : Fin 8) q)) = xs0 (ix2 (15 : Fin 16) q)
  rw [emb_hi]; rfl

/-- The output block a later point stores: row 7 of the stacked product applied to the scratch as found. -/
theorem later_out (q : Fin 131072) :
    out0_B_7 (F := Ideal) c i arg1 harg1 arg2 harg2 arg3 harg3 arg4 harg4 arg5 harg5 arg6 harg6 arg7 harg7 arg8 harg8 arg9 harg9 hc0 x0 x1 x2 x3 x4 x5 x6 xs0 (ix2 (0 : Fin 1) q)
      = k0_pay6 x2 x3 x5 x6 xs0 (ix2 (0 : Fin 1) q) := by
  unfold out0_B_7
  rw [View.read_writes_junk_eq_canon]
  unfold kernelRun0_B; dsimp only; sl_unfold_words
  rw [View.canon_unit_zero hz2]
  simp only [View.readAt_eq_ld, harg3.read_unread, harg4.read_unread, harg6.read_unread, harg7.read_unread, harg9.read_unread,
    View.ld_unit_zero (S := S7x7) hz2, View.ld_unit_zero (S := S1x7) hz2, View.ld_unit_zero (S := S7x1) hz2,
    View.ld_unit_zero (S := S1x1) hz2, View.ld_unit_zero (S := S16x131072) hz2]

end Later

section First

variable (c : Dev nD) (i : grid0.Coords) (arg1 : Memref sig .tc .vmem S12x131072 .f32) (harg1 : arg1.IsWhole) (arg2 : Memref sig .tc .vmem S7x12 .f32) (harg2 : arg2.IsWhole) (arg3 : Memref sig .tc .vmem S7x7 .f32) (harg3 : arg3.IsWhole) (arg4 : Memref sig .tc .vmem S1x7 .f32) (harg4 : arg4.IsWhole) (arg5 : Memref sig .tc .vmem S7x1 .f32) (harg5 : arg5.IsWhole) (arg6 : Memref sig .tc .vmem S7x1 .f32) (harg6 : arg6.IsWhole) (arg7 : Memref sig .tc .vmem S1x1 .f32) (harg7 : arg7.IsWhole) (arg8 : Memref sig .tc .vmem S1x131072 .f32) (harg8 : arg8.IsWhole) (arg9 : Memref sig .tc .vmem S16x131072 .bf16) (harg9 : arg9.IsWhole) (hc0 : cond0_0 i)
  (x0 : Vec Ideal S12x131072 .f32) (x1 : Vec Ideal S7x12 .f32) (x2 : Vec Ideal S7x7 .f32) (x3 : Vec Ideal S1x7 .f32) (x4 : Vec Ideal S7x1 .f32) (x5 : Vec Ideal S7x1 .f32) (x6 : Vec Ideal S1x1 .f32)

/-- Rows 0‥6 after the first point: the first layer of block 0, floored at zero. -/
theorem first_low (k : Fin 7) (q : Fin 131072) :
    sout0_A_0 (F := Ideal) c i arg1 harg1 arg2 harg2 arg3 harg3 arg4 harg4 arg5 harg5 arg6 harg6 arg7 harg7 arg8 harg8 arg9 harg9 hc0 x0 x1 x2 x3 x4 x5 x6 (ix2 (⟨k.val, by omega⟩ : Fin 16) q)
      = max (k0_pay7 x0 x1 x4 (ix2 k q)) 0 := by
  unfold sout0_A_0
  rw [View.read_writes_junk_eq_canon]
  unfold kernelRun0_A; dsimp only; sl_unfold_words
  refine (canon_skip_hi _ _ (⟨k.val, by omega⟩ : Fin 16) (by show k.val < 8; omega) q).trans ?_
  refine (canon_lo _ _ (⟨k.val, by omega⟩ : Fin 8) q).trans ?_
  show updateSlice _ _ ![0, 0] slices_S8x131072_S7x131072_0_0 (ix2 (⟨k.val, by omega⟩ : Fin 8) q) = _
  rw [updateSlice8_apply, dif_pos (show k.val < 7 from k.isLt), pay1_apply, pay8_apply]
  simp only [View.readAt_eq_ld, harg1.read_unread, harg2.read_unread, harg5.read_unread,
    View.ld_unit_zero (S := S12x131072) hz2, View.ld_unit_zero (S := S7x12) hz2, View.ld_unit_zero (S := S7x1) hz2]

/-- Row 15 after the first point is the row of ones the initialisation wrote. -/
theorem first_last (q : Fin 131072) :
    sout0_A_0 (F := Ideal) c i arg1 harg1 arg2 harg2 arg3 harg3 arg4 harg4 arg5 harg5 arg6 harg6 arg7 harg7 arg8 harg8 arg9 harg9 hc0 x0 x1 x2 x3 x4 x5 x6 (ix2 (15 : Fin 16) q) = 1 := by
  unfold sout0_A_0
  rw [View.read_writes_junk_eq_canon]
  unfold kernelRun0_A; dsimp only; sl_unfold_words
  refine (canon_hi _ _ (7 : Fin 8) q).trans ?_
  rw [updateSlice8_apply, dif_neg (by decide), View.readCov_eq_canon']
  show View.canon _ (rHi.emb (ix2 (7 : Fin 8) q)) = 1
  rw [emb_hi]
  show View.canon _ (ix2 (15 : Fin 16) q) = 1
  refine (canon_skip_lo _ _ (15 : Fin 16) (by decide) q).trans ?_
  show View.canon _ (ix2 (⟨14 + (1 : Fin 2).val, by omega⟩ : Fin 16) q) = 1
  refine (canon_tail _ _ (1 : Fin 2) q).trans ?_
  show updateSlice _ _ ![1, 0] slices_S2x131072_S1x131072_1_0 (ix2 (1 : Fin 2) q) = _
  rw [updateSlice2_apply, if_pos (show ((1 : Fin 2).val = 1) from rfl), pay4_apply]

end First

end Cert.KernelIdeal.Body

end
-- ==== Proof.KPayLayout.lean ====
import proofs.«128126_g2000603897208126_pallasbulk_572_16_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! # The stacked left operand of the second product, entry by entry

The second product of the body multiplies an [8, 16] matrix by the [16, T] scratch. The matrix is assembled
from three concatenations: along the columns, [W1 | 0 | b1] (seven rows) and [0 | W2 | b2] (one row); then
the two along the rows. This module reads each concatenation at explicit coordinates: a column below 7
(below 8 in the last row) falls in the first piece, the next eight (seven) in the second, column 15 in the third;
a row below 7 falls in the upper block, row 7 in the lower. -/

noncomputable section

namespace Cert.KernelIdeal.KPay

open Cert.KernelIdeal Cert.KernelIdeal.Gen
open Idealize.ShloMosaic Idealize.ShloMosaic.ValueIdx

variable {α : Type}

/-! ## The upper block [A | B | C] with A : [7, 7], B : [7, 8], C : [7, 1] -/

/-- Columns 0..6 of the upper block are the first piece's. -/
theorem concatUpper_left (x₁ : S7x7.Idx → α) (x₂ : S7x8.Idx → α) (x₃ : S7x1.Idx → α) (r : Fin 7) (c : Fin 7) :
    concatenate S7x16 1 [⟨S7x7, x₁⟩, ⟨S7x8, x₂⟩, ⟨S7x1, x₃⟩] concatenates_S7x7_S7x8_S7x1_S7x16_d1
        (ix2 r (⟨c.val, by omega⟩ : Fin 16)) = x₁ (ix2 r c) := by
  refine concatenate_apply_piece (t := S7x16) (1 : Fin 2) [⟨S7x7, x₁⟩, ⟨S7x8, x₂⟩, ⟨S7x1, x₃⟩] concatenates_S7x7_S7x8_S7x1_S7x16_d1 _ 0 (by simp) S7x7 x₁ rfl rfl 0 rfl (ix2 r c) (fun b hb => ?_) ?_
  · match b with
    | ⟨0, _⟩ => rfl
    | ⟨1, _⟩ => exact absurd rfl hb
  · show 0 + c.val = c.val; omega

/-- Columns 7..14 of the upper block are the second piece's. -/
theorem concatUpper_mid (x₁ : S7x7.Idx → α) (x₂ : S7x8.Idx → α) (x₃ : S7x1.Idx → α) (r : Fin 7) (c : Fin 8) :
    concatenate S7x16 1 [⟨S7x7, x₁⟩, ⟨S7x8, x₂⟩, ⟨S7x1, x₃⟩] concatenates_S7x7_S7x8_S7x1_S7x16_d1
        (ix2 r (⟨7 + c.val, by omega⟩ : Fin 16)) = x₂ (ix2 r c) := by
  refine concatenate_apply_piece (t := S7x16) (1 : Fin 2) [⟨S7x7, x₁⟩, ⟨S7x8, x₂⟩, ⟨S7x1, x₃⟩] concatenates_S7x7_S7x8_S7x1_S7x16_d1 _ 1 (by simp) S7x8 x₂ rfl rfl 7 rfl (ix2 r c) (fun b hb => ?_) ?_
  · match b with
    | ⟨0, _⟩ => rfl
    | ⟨1, _⟩ => exact absurd rfl hb
  · show 7 + c.val = 7 + c.val; rfl

/-- Column 15 of the upper block is the third piece's one column. -/
theorem concatUpper_right (x₁ : S7x7.Idx → α) (x₂ : S7x8.Idx → α) (x₃ : S7x1.Idx → α) (r : Fin 7) :
    concatenate S7x16 1 [⟨S7x7, x₁⟩, ⟨S7x8, x₂⟩, ⟨S7x1, x₃⟩] concatenates_S7x7_S7x8_S7x1_S7x16_d1
        (ix2 r (15 : Fin 16)) = x₃ (ix2 r (0 : Fin 1)) := by
  refine concatenate_apply_piece (t := S7x16) (1 : Fin 2) [⟨S7x7, x₁⟩, ⟨S7x8, x₂⟩, ⟨S7x1, x₃⟩] concatenates_S7x7_S7x8_S7x1_S7x16_d1 _ 2 (by simp) S7x1 x₃ rfl rfl 15 rfl (ix2 r (0 : Fin 1)) (fun b hb => ?_) ?_
  · match b with
    | ⟨0, _⟩ => rfl
    | ⟨1, _⟩ => exact absurd rfl hb
  · rfl

/-! ## The lower row [A | B | C] with A : [1, 8], B : [1, 7], C : [1, 1] -/

/-- Columns 0..7 of the lower row are the first piece's. -/
theorem concatLower_left (x₁ : S1x8.Idx → α) (x₂ : S1x7.Idx → α) (x₃ : S1x1.Idx → α) (c : Fin 8) :
    concatenate S1x16 1 [⟨S1x8, x₁⟩, ⟨S1x7, x₂⟩, ⟨S1x1, x₃⟩] concatenates_S1x8_S1x7_S1x1_S1x16_d1
        (ix2 (0 : Fin 1) (⟨c.val, by omega⟩ : Fin 16)) = x₁ (ix2 (0 : Fin 1) c) := by
  refine concatenate_apply_piece (t := S1x16) (1 : Fin 2) [⟨S1x8, x₁⟩, ⟨S1x7, x₂⟩, ⟨S1x1, x₃⟩] concatenates_S1x8_S1x7_S1x1_S1x16_d1 _ 0 (by simp) S1x8 x₁ rfl rfl 0 rfl (ix2 (0 : Fin 1) c) (fun b hb => ?_) ?_
  · match b with
    | ⟨0, _⟩ => rfl
    | ⟨1, _⟩ => exact absurd rfl hb
  · show 0 + c.val = c.val; omega

/-- Columns 8..14 of the lower row are the second piece's. -/
theorem concatLower_mid (x₁ : S1x8.Idx → α) (x₂ : S1x7.Idx → α) (x₃ : S1x1.Idx → α) (c : Fin 7) :
    concatenate S1x16 1 [⟨S1x8, x₁⟩, ⟨S1x7, x₂⟩, ⟨S1x1, x₃⟩] concatenates_S1x8_S1x7_S1x1_S1x16_d1
        (ix2 (0 : Fin 1) (⟨8 + c.val, by omega⟩ : Fin 16)) = x₂ (ix2 (0 : Fin 1) c) := by
  refine concatenate_apply_piece (t := S1x16) (1 : Fin 2) [⟨S1x8, x₁⟩, ⟨S1x7, x₂⟩, ⟨S1x1, x₃⟩] concatenates_S1x8_S1x7_S1x1_S1x16_d1 _ 1 (by simp) S1x7 x₂ rfl rfl 8 rfl (ix2 (0 : Fin 1) c) (fun b hb => ?_) ?_
  · match b with
    | ⟨0, _⟩ => rfl
    | ⟨1, _⟩ => exact absurd rfl hb
  · show 8 + c.val = 8 + c.val; rfl

/-- Column 15 of the lower row is the third piece's one entry. -/
theorem concatLower_right (x₁ : S1x8.Idx → α) (x₂ : S1x7.Idx → α) (x₃ : S1x1.Idx → α) :
    concatenate S1x16 1 [⟨S1x8, x₁⟩, ⟨S1x7, x₂⟩, ⟨S1x1, x₃⟩] concatenates_S1x8_S1x7_S1x1_S1x16_d1
        (ix2 (0 : Fin 1) (15 : Fin 16)) = x₃ (ix2 (0 : Fin 1) (0 : Fin 1)) := by
  refine concatenate_apply_piece (t := S1x16) (1 : Fin 2) [⟨S1x8, x₁⟩, ⟨S1x7, x₂⟩, ⟨S1x1, x₃⟩] concatenates_S1x8_S1x7_S1x1_S1x16_d1 _ 2 (by simp) S1x1 x₃ rfl rfl 15 rfl (ix2 (0 : Fin 1) (0 : Fin 1)) (fun b hb => ?_) ?_
  · match b with
    | ⟨0, _⟩ => rfl
    | ⟨1, _⟩ => exact absurd rfl hb
  · rfl

/-! ## The two blocks stacked along the rows -/

/-- Rows 0..6 of the stacked matrix are the upper block's. -/
theorem concatRows_upper (x₁ : S7x16.Idx → α) (x₂ : S1x16.Idx → α) (r : Fin 7) (c : Fin 16) :
    concatenate S8x16 0 [⟨S7x16, x₁⟩, ⟨S1x16, x₂⟩] concatenates_S7x16_S1x16_S8x16_d0
        (ix2 (⟨r.val, by omega⟩ : Fin 8) c) = x₁ (ix2 r c) := by
  refine concatenate_apply_piece (t := S8x16) (0 : Fin 2) [⟨S7x16, x₁⟩, ⟨S1x16, x₂⟩] concatenates_S7x16_S1x16_S8x16_d0 _ 0 (by simp) S7x16 x₁ rfl rfl 0 rfl (ix2 r c) (fun b hb => ?_) ?_
  · match b with
    | ⟨0, _⟩ => exact absurd rfl hb
    | ⟨1, _⟩ => rfl
  · show 0 + r.val = r.val; omega

/-- Row 7 of the stacked matrix is the lower row. -/
theorem concatRows_lower (x₁ : S7x16.Idx → α) (x₂ : S1x16.Idx → α) (c : Fin 16) :
    concatenate S8x16 0 [⟨S7x16, x₁⟩, ⟨S1x16, x₂⟩] concatenates_S7x16_S1x16_S8x16_d0
        (ix2 (7 : Fin 8) c) = x₂ (ix2 (0 : Fin 1) c) := by
  refine concatenate_apply_piece (t := S8x16) (0 : Fin 2) [⟨S7x16, x₁⟩, ⟨S1x16, x₂⟩] concatenates_S7x16_S1x16_S8x16_d0 _ 1 (by simp) S1x16 x₂ rfl rfl 7 rfl (ix2 (0 : Fin 1) c) (fun b hb => ?_) ?_
  · match b with
    | ⟨0, _⟩ => exact absurd rfl hb
    | ⟨1, _⟩ => rfl
  · rfl

end Cert.KernelIdeal.KPay

end
-- ==== Proof.KPayDotA.lean ====
import proofs.«128126_g2000603897208126_pallasbulk_572_16_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! # The layer-0 product of the perceptron body, read at an index

The first matrix product of the body multiplies the [7, 12] weight block by the [12, T] block of inputs into
a zero accumulator; the column of biases is then broadcast along the batch axis and added. At the ideal values
the entry at row `k`, column `q` is the sum over the twelve features of weight times input, plus the bias
of row `k`. -/

noncomputable section

namespace Cert.KernelIdeal.KPay

open Cert.KernelIdeal Cert.KernelIdeal.Gen
open Idealize.ShloMosaic Idealize.ShloMosaic.ValueIdx
open scoped BigOperators

/-- A [7, 12] by [12, T] product into the zero accumulator, at row `k` and column `q`: the sum over the
    contracted axis of the products of the operands' entries. -/
theorem dot7x12_apply (lhs : FVec Ideal S7x12 .bf16) (rhs : FVec Ideal S12x131072 .bf16) (k : Fin 7) (q : Fin 131072) :
    matmul dot_S7x12_S12x131072_S7x131072_1_0_0_1_n_n none lhs rhs (constant (F := Ideal) S7x131072 .f32 0x00000000#32) (ix2 k q)
      = ∑ i : Fin 12, lhs (ix2 k i) * rhs (ix2 i q) := by
  refine (Ideal.matmul_constant_zero_apply dot_S7x12_S12x131072_S7x131072_1_0_0_1_n_n none lhs rhs (ix2 k q)).trans ?_
  rw [← Equiv.sum_comp (contrEquiv1 dot_S7x12_S12x131072_S7x131072_1_0_0_1_n_n 12 rfl rfl).symm]
  refine Finset.sum_congr rfl fun i _ => ?_
  have hl : dot_S7x12_S12x131072_S7x131072_1_0_0_1_n_n.lhsIdx (ix2 k q)
      ((contrEquiv1 dot_S7x12_S12x131072_S7x131072_1_0_0_1_n_n 12 rfl rfl).symm i) = ix2 k i := by
    funext a
    match a with
    | ⟨0, _⟩ => exact Fin.ext rfl
    | ⟨1, _⟩ =>
      exact Fin.ext ((DotDims.lhsIdx_val_of_single _ (cl := (1 : Fin 2)) rfl _ _).trans
        (contrEquiv1_symm_val dot_S7x12_S12x131072_S7x131072_1_0_0_1_n_n 12 rfl rfl i))
  have hr : dot_S7x12_S12x131072_S7x131072_1_0_0_1_n_n.rhsIdx (ix2 k q)
      ((contrEquiv1 dot_S7x12_S12x131072_S7x131072_1_0_0_1_n_n 12 rfl rfl).symm i) = ix2 i q := by
    funext a
    match a with
    | ⟨0, _⟩ =>
      exact Fin.ext ((DotDims.rhsIdx_val_of_single _ (cr := (0 : Fin 2)) rfl _ _).trans
        (contrEquiv1_symm_val dot_S7x12_S12x131072_S7x131072_1_0_0_1_n_n 12 rfl rfl i))
    | ⟨1, _⟩ => exact Fin.ext rfl
  rw [hl, hr]

/-- A column of seven values broadcast along the batch axis, at row `k` and column `q`: the column's entry at row `k`. -/
theorem broadcastCol7_apply (x : S7x1.Idx → Ideal .bf16) (k : Fin 7) (q : Fin 131072) :
    broadcastTo S7x131072 x broadcasts_S7x1_S7x131072 (ix2 k q) = x (ix2 k (0 : Fin 1)) := by
  refine broadcastTo_apply _ _ (ix2 k q) (ix2 k (0 : Fin 1)) fun a => ?_
  match a with
  | ⟨0, _⟩ => rfl
  | ⟨1, _⟩ => rfl

/-- The layer-0 pre-activation at row `k`, column `q`: weights times inputs over the twelve features, plus the bias. -/
theorem pay7_apply (v16 : Vec Ideal S12x131072 .f32) (v19 : Vec Ideal S7x12 .f32) (v27 : Vec Ideal S7x1 .f32)
    (k : Fin 7) (q : Fin 131072) :
    k0_pay7 v16 v19 v27 (ix2 k q) = (∑ i : Fin 12, v19 (ix2 k i) * v16 (ix2 i q)) + v27 (ix2 k (0 : Fin 1)) := by
  unfold k0_pay7
  rw [shapeCast_self]
  show (matmul dot_S7x12_S12x131072_S7x131072_1_0_0_1_n_n none (truncf .bf16 v19 bitsLt_bf16_f32)
        (truncf .bf16 v16 bitsLt_bf16_f32) (constant (F := Ideal) S7x131072 .f32 0x00000000#32) (ix2 k q) : EReal)
      + (broadcastTo S7x131072 (truncf (F := Ideal) .bf16 v27 bitsLt_bf16_f32) broadcasts_S7x1_S7x131072 (ix2 k q) : EReal) = _
  rw [dot7x12_apply, broadcastCol7_apply]
  rfl

end Cert.KernelIdeal.KPay

end
-- ==== Proof.KPayDotB.lean ====
import proofs.«128126_g2000603897208126_pallasbulk_572_16_alg».proof.Proof.Gen.KernelIdeal.Skeleton
import proofs.«128126_g2000603897208126_pallasbulk_572_16_alg».proof.Proof.KPayLayout
import proofs.«128126_g2000603897208126_pallasbulk_572_16_alg».proof.Proof.KPayBasic
import Idealize.ShloMosaic.Lib.ValueIdx
import Idealize.ShloMosaic.Lib.Pipeline.Value
import Idealize.ShloMosaic.Lib.ValueLayout
import Idealize.ShloMosaic.PureOps.Ideal.Laws

/-! # The second product of the perceptron body, read at an index

The second product multiplies the stacked [8, 16] matrix [[W1 | 0 | b1], [0 | W2 | b2]] by the [16, T] scratch
into a zero accumulator. Entry (r, q) is a sum of sixteen terms. Where the scratch's row 15 holds the constant
one, the sum collapses: in rows 0..6 the eight zero columns contribute nothing, column 15 contributes the bias,
and what is left is row r of W1 against rows 0..6 of the scratch; in row 7 the first eight columns contribute
nothing and what is left is W2 against rows 8..14 of the scratch, plus the last bias. `0 * x = 0` holds for every
extended real `x`, so no finiteness is asked of the scratch. -/

noncomputable section

namespace Cert.KernelIdeal.KPay

open Cert.KernelIdeal Cert.KernelIdeal.Gen
open Idealize.ShloMosaic Idealize.ShloMosaic.ValueIdx
open scoped BigOperators

/-! ## Sixteen terms as 7 + 8 + 1 and as 8 + 7 + 1 -/

/-- A sum over sixteen positions: the first seven, the next eight, the last. -/
theorem sum_fin16_7_8_1 {M : Type} [AddCommMonoid M] (f : Fin 16 → M) :
    ∑ c : Fin 16, f c
      = (∑ k : Fin 7, f ⟨k.val, by omega⟩) + ((∑ k : Fin 8, f ⟨7 + k.val, by omega⟩) + f 15) := by
  refine (Fin.sum_univ_add (a := 7) (b := 9) f).trans ?_
  refine congrArg₂ (· + ·) rfl ?_
  exact (Fin.sum_univ_castSucc (n := 8) (fun i : Fin 9 => f (Fin.natAdd 7 i))).trans rfl

/-- A sum over sixteen positions: the first eight, the next seven, the last. -/
theorem sum_fin16_8_7_1 {M : Type} [AddCommMonoid M] (f : Fin 16 → M) :
    ∑ c : Fin 16, f c
      = (∑ k : Fin 8, f ⟨k.val, by omega⟩) + ((∑ k : Fin 7, f ⟨8 + k.val, by omega⟩) + f 15) := by
  refine (Fin.sum_univ_add (a := 8) (b := 8) f).trans ?_
  refine congrArg₂ (· + ·) rfl ?_
  exact (Fin.sum_univ_castSucc (n := 7) (fun i : Fin 8 => f (Fin.natAdd 8 i))).trans rfl

/-! ## The product at an index -/

/-- An [8, 16] by [16, T] product into the zero accumulator, at row `r` and column `q`: the sum over the
    contracted axis of the products of the operands' entries. -/
theorem dot8x16_apply (lhs : FVec Ideal S8x16 .bf16) (rhs : FVec Ideal S16x131072 .bf16) (r : Fin 8) (q : Fin 131072) :
    matmul dot_S8x16_S16x131072_S8x131072_1_0_0_1_n_n none lhs rhs (constant (F := Ideal) S8x131072 .f32 0x00000000#32) (ix2 r q)
      = ∑ c : Fin 16, lhs (ix2 r c) * rhs (ix2 c q) := by
  refine (Ideal.matmul_constant_zero_apply dot_S8x16_S16x131072_S8x131072_1_0_0_1_n_n none lhs rhs (ix2 r q)).trans ?_
  rw [← Equiv.sum_comp (contrEquiv1 dot_S8x16_S16x131072_S8x131072_1_0_0_1_n_n 16 rfl rfl).symm]
  refine Finset.sum_congr rfl fun i _ => ?_
  have hl : dot_S8x16_S16x131072_S8x131072_1_0_0_1_n_n.lhsIdx (ix2 r q)
      ((contrEquiv1 dot_S8x16_S16x131072_S8x131072_1_0_0_1_n_n 16 rfl rfl).symm i) = ix2 r i := by
    funext a
    match a with
    | ⟨0, _⟩ => exact Fin.ext rfl
    | ⟨1, _⟩ =>
      exact Fin.ext ((DotDims.lhsIdx_val_of_single _ (cl := (1 : Fin 2)) rfl _ _).trans
        (contrEquiv1_symm_val dot_S8x16_S16x131072_S8x131072_1_0_0_1_n_n 16 rfl rfl i))
  have hr : dot_S8x16_S16x131072_S8x131072_1_0_0_1_n_n.rhsIdx (ix2 r q)
      ((contrEquiv1 dot_S8x16_S16x131072_S8x131072_1_0_0_1_n_n 16 rfl rfl).symm i) = ix2 i q := by
    funext a
    match a with
    | ⟨0, _⟩ =>
      exact Fin.ext ((DotDims.rhsIdx_val_of_single _ (cr := (0 : Fin 2)) rfl _ _).trans
        (contrEquiv1_symm_val dot_S8x16_S16x131072_S8x131072_1_0_0_1_n_n 16 rfl rfl i))
    | ⟨1, _⟩ => exact Fin.ext rfl
  rw [hl, hr]

/-! ## The stacked matrix -/

/-- The left operand of the second product: [W1 | 0 | b1] over [0 | W2 | b2]. -/
def stacked (v3 : Vec Ideal S7x7 .f32) (v5 : Vec Ideal S1x7 .f32) (v9 : Vec Ideal S7x1 .f32) (v12 : Vec Ideal S1x1 .f32) :
    FVec Ideal S8x16 .bf16 :=
  concatenate S8x16 0
    [⟨S7x16, concatenate S7x16 1
        [⟨S7x7, truncf .bf16 v3 bitsLt_bf16_f32⟩, ⟨S7x8, broadcast S7x8 (Scalar.ofBits (F := Ideal) .bf16 0x0000#16)⟩,
          ⟨S7x1, truncf .bf16 v9 bitsLt_bf16_f32⟩] concatenates_S7x7_S7x8_S7x1_S7x16_d1⟩,
     ⟨S1x16, concatenate S1x16 1
        [⟨S1x8, broadcast S1x8 (Scalar.ofBits (F := Ideal) .bf16 0x0000#16)⟩, ⟨S1x7, truncf .bf16 v5 bitsLt_bf16_f32⟩,
          ⟨S1x1, truncf .bf16 v12 bitsLt_bf16_f32⟩] concatenates_S1x8_S1x7_S1x1_S1x16_d1⟩]
    concatenates_S7x16_S1x16_S8x16_d0

variable (v3 : Vec Ideal S7x7 .f32) (v5 : Vec Ideal S1x7 .f32) (v9 : Vec Ideal S7x1 .f32) (v12 : Vec Ideal S1x1 .f32)

/-- Rows 0..6, columns 0..6: W1. -/
theorem stacked_w1 (r k : Fin 7) :
    stacked v3 v5 v9 v12 (ix2 (⟨r.val, by omega⟩ : Fin 8) (⟨k.val, by omega⟩ : Fin 16)) = v3 (ix2 r k) := by
  unfold stacked
  rw [concatRows_upper, concatUpper_left]
  rfl

/-- Rows 0..6, columns 7..14: zero. -/
theorem stacked_upper_zero (r : Fin 7) (k : Fin 8) :
    stacked v3 v5 v9 v12 (ix2 (⟨r.val, by omega⟩ : Fin 8) (⟨7 + k.val, by omega⟩ : Fin 16)) = 0 := by
  unfold stacked
  rw [concatRows_upper, concatUpper_mid]
  exact ofBits_zero_bf16

/-- Rows 0..6, column 15: b1. -/
theorem stacked_b1 (r : Fin 7) :
    stacked v3 v5 v9 v12 (ix2 (⟨r.val, by omega⟩ : Fin 8) (15 : Fin 16)) = v9 (ix2 r (0 : Fin 1)) := by
  unfold stacked
  rw [concatRows_upper, concatUpper_right]
  rfl

/-- Row 7, columns 0..7: zero. -/
theorem stacked_lower_zero (k : Fin 8) :
    stacked v3 v5 v9 v12 (ix2 (7 : Fin 8) (⟨k.val, by omega⟩ : Fin 16)) = 0 := by
  unfold stacked
  rw [concatRows_lower, concatLower_left]
  exact ofBits_zero_bf16

/-- Row 7, columns 8..14: W2. -/
theorem stacked_w2 (j : Fin 7) :
    stacked v3 v5 v9 v12 (ix2 (7 : Fin 8) (⟨8 + j.val, by omega⟩ : Fin 16)) = v5 (ix2 (0 : Fin 1) j) := by
  unfold stacked
  rw [concatRows_lower, concatLower_mid]
  rfl

/-- Row 7, column 15: b2. -/
theorem stacked_b2 :
    stacked v3 v5 v9 v12 (ix2 (7 : Fin 8) (15 : Fin 16)) = v12 (ix2 (0 : Fin 1) (0 : Fin 1)) := by
  unfold stacked
  rw [concatRows_lower, concatLower_right]
  rfl

/-! ## The payload -/

variable (v22 : Vec Ideal S16x131072 .bf16)

/-- The second product at row `r`, column `q`, as sixteen terms of the stacked matrix against the scratch. -/
theorem pay5_eq_sum (r : Fin 8) (q : Fin 131072) :
    k0_pay5 v3 v5 v9 v12 v22 (ix2 r q) = ∑ c : Fin 16, stacked v3 v5 v9 v12 (ix2 r c) * v22 (ix2 c q) := by
  unfold k0_pay5
  exact dot8x16_apply (stacked v3 v5 v9 v12) v22 r q

/-- Rows 0..6 of the second product, where the scratch's row 15 is one at column `q`: row `r` of W1 against rows
    0..6 of the scratch, plus the bias. -/
theorem pay5_upper (r : Fin 7) (q : Fin 131072) (h1 : v22 (ix2 (15 : Fin 16) q) = 1) :
    k0_pay5 v3 v5 v9 v12 v22 (ix2 (⟨r.val, by omega⟩ : Fin 8) q)
      = (∑ k : Fin 7, v3 (ix2 r k) * v22 (ix2 (⟨k.val, by omega⟩ : Fin 16) q)) + v9 (ix2 r (0 : Fin 1)) := by
  rw [pay5_eq_sum, sum_fin16_7_8_1]
  refine congrArg₂ (· + ·) (Finset.sum_congr rfl fun k _ => ?_) ?_
  · rw [stacked_w1]
  · rw [stacked_b1, h1, mul_one]
    refine (congrArg (· + _) (Finset.sum_eq_zero fun k _ => ?_)).trans (zero_add _)
    rw [stacked_upper_zero, zero_mul]

/-- Row 7 of the second product, where the scratch's row 15 is one at column `q`: W2 against rows 8..14 of the
    scratch, plus the bias. -/
theorem pay5_lower (q : Fin 131072) (h1 : v22 (ix2 (15 : Fin 16) q) = 1) :
    k0_pay5 v3 v5 v9 v12 v22 (ix2 (7 : Fin 8) q)
      = (∑ j : Fin 7, v5 (ix2 (0 : Fin 1) j) * v22 (ix2 (⟨8 + j.val, by omega⟩ : Fin 16) q)) + v12 (ix2 (0 : Fin 1) (0 : Fin 1)) := by
  rw [pay5_eq_sum, sum_fin16_8_7_1]
  refine (congrArg (· + _) (Finset.sum_eq_zero fun k _ => ?_)).trans ((zero_add _).trans ?_)
  · rw [stacked_lower_zero, zero_mul]
  · refine congrArg₂ (· + ·) (Finset.sum_congr rfl fun j _ => ?_) ?_
    · rw [stacked_w2]
    · rw [stacked_b2, h1, mul_one]

/-- The logits row: row 7 of the second product. -/
theorem pay6_apply (q : Fin 131072) :
    k0_pay6 v3 v5 v9 v12 v22 (ix2 (0 : Fin 1) q) = k0_pay5 v3 v5 v9 v12 v22 (ix2 (7 : Fin 8) q) := by
  unfold k0_pay6
  refine extractStridedSlice_apply _ _ _ (ix2 (0 : Fin 1) q) (ix2 (7 : Fin 8) q) fun a => ?_
  match a with
  | ⟨0, _⟩ => rfl
  | ⟨1, _⟩ => show q.val = 0 + q.val; omega

end Cert.KernelIdeal.KPay

end
-- ==== Proof.KPay.lean ====
import proofs.«128126_g2000603897208126_pallasbulk_572_16_alg».proof.Proof.KPayBasic
import proofs.«128126_g2000603897208126_pallasbulk_572_16_alg».proof.Proof.KPayLayout
import proofs.«128126_g2000603897208126_pallasbulk_572_16_alg».proof.Proof.KPayDotA
import proofs.«128126_g2000603897208126_pallasbulk_572_16_alg».proof.Proof.KPayDotB

/-! # The payloads of the perceptron body at an index

The pointwise payloads, the layer-0 product and the stacked second product, gathered under one import. -/
-- ==== Proof.MlpSpec.lean ====
/-
  The function both programs compute, stated once over plain index sets.

  A batch of 1,048,576 feature columns, each of 12 numbers, is pushed through a three-layer perceptron with
  7 + 7 hidden units: `h0 = max(W0·x + b0, 0)`, `h1 = max(W1·h0 + b1, 0)`, `logit = W2·h1 + b2`. The features are
  read column-major (`xT (i, n)` is feature `i` of column `n`), the weights row-major as the layers apply them, and a
  bias `b (k, 0)` is the one entry of row `k` of a one-column matrix. Everything is an extended real; the only
  operations are sums, products and maxima, so no finiteness is assumed anywhere.
-/
import Idealize.ShloMosaic.PureOps.Ideal
import Idealize.ShloMosaic.Lib.ValueIdx

noncomputable section

open scoped BigOperators

namespace Cert.MlpSpec

open Idealize.ShloMosaic Idealize.ShloMosaic.ValueIdx

/-- The features, column-major: 12 rows, one column per example. -/
abbrev XT : Type := (⟨2, ![12, 1048576]⟩ : Shape).Idx → EReal
abbrev W0 : Type := (⟨2, ![7, 12]⟩ : Shape).Idx → EReal
abbrev B7 : Type := (⟨2, ![7, 1]⟩ : Shape).Idx → EReal
abbrev W1 : Type := (⟨2, ![7, 7]⟩ : Shape).Idx → EReal
abbrev W2 : Type := (⟨2, ![1, 7]⟩ : Shape).Idx → EReal
abbrev B1 : Type := (⟨2, ![1, 1]⟩ : Shape).Idx → EReal

/-- Unit `k` of the first hidden layer at example `n`: `max (∑ᵢ W0[k,i]·x[i,n] + b0[k], 0)`. -/
def hid0 (xT : XT) (w0 : W0) (b0 : B7) (k : Fin 7) (n : Fin 1048576) : EReal :=
  max ((∑ i : Fin 12, w0 (ix2 k i) * xT (ix2 i n)) + b0 (ix2 k 0)) 0

/-- Unit `j` of the second hidden layer at example `n`: `max (∑ₖ W1[j,k]·h0[k,n] + b1[j], 0)`. -/
def hid1 (xT : XT) (w0 : W0) (b0 : B7) (w1 : W1) (b1 : B7) (j : Fin 7) (n : Fin 1048576) : EReal :=
  max ((∑ k : Fin 7, w1 (ix2 j k) * hid0 xT w0 b0 k n) + b1 (ix2 j 0)) 0

/-- The logit of example `n`: `∑ⱼ W2[0,j]·h1[j,n] + b2`. -/
def logit (xT : XT) (w0 : W0) (b0 : B7) (w1 : W1) (b1 : B7) (w2 : W2) (b2 : B1) (n : Fin 1048576) : EReal :=
  (∑ j : Fin 7, w2 (ix2 0 j) * hid1 xT w0 b0 w1 b1 j n) + b2 (ix2 0 0)

/-- All the logits as one row: entry `(0, n)` is example `n`'s. -/
def logitsRow (xT : XT) (w0 : W0) (b0 : B7) (w1 : W1) (b1 : B7) (w2 : W2) (b2 : B1) :
    (⟨2, ![1, 1048576]⟩ : Shape).Idx → EReal :=
  fun j => logit xT w0 b0 w1 b1 w2 b2 (j 1)

end Cert.MlpSpec

end
-- ==== Proof.IdealInvariant.lean ====
/-
  What the scratch holds after each grid point, and the block each point from the third on stores.

  After point `n` the scratch's sixteen rows are:
    row 15      the constant one;
    rows 0‥6    the first hidden layer of the feature columns of block `min n 7`;
    rows 8‥14   (from point 1 on) the second hidden layer of the columns of block `min (n-1) 7`.
  By induction on the point. At a later point the stacked product multiplies the previous rows 0‥6 by W1, the
  rows 7‥14 by zeros and row 15 by b1, which with row 15 equal to one is `W1·h0 + b1`; floored at zero it is the
  second layer of the PREVIOUS point's block, while the current block's first layer overwrites rows 0‥6. The product's
  last row multiplies rows 0‥7 by zeros, rows 8‥14 by W2 and row 15 by b2: the logits of the block before the
  previous one, which is what a point from the third on stores. A product with a zero entry is zero and with one
  is the other factor on the extended reals, so no finiteness is used.
-/
import proofs.«128126_g2000603897208126_pallasbulk_572_16_alg».proof.Proof.IdealRows
import proofs.«128126_g2000603897208126_pallasbulk_572_16_alg».proof.Proof.IdealBlocks
import proofs.«128126_g2000603897208126_pallasbulk_572_16_alg».proof.Proof.KPay
import proofs.«128126_g2000603897208126_pallasbulk_572_16_alg».proof.Proof.MlpSpec

set_option maxRecDepth 16384

noncomputable section

open scoped BigOperators

namespace Cert.KernelIdeal.Body

open Cert.KernelIdeal Cert.KernelIdeal.Gen Cert.KernelIdeal.KPay Cert.MlpSpec
open Idealize.ShloMosaic Idealize.ShloMosaic.TcCoe Idealize.ShloMosaic.ValueIdx
open Idealize.SL Idealize.SL.Sem

/-! ## One column of one point, over plain vectors -/

/-- The first layer of a block's column `q`, when that column is column `n` of the features. -/
theorem layer0_eq (x0 : Vec Ideal S12x131072 .f32) (x1 : Vec Ideal S7x12 .f32) (x4 : Vec Ideal S7x1 .f32)
    (xT : XT) (w0 : W0) (b0 : B7) (k : Fin 7) (q : Fin 131072) (n : Fin 1048576)
    (hx : ∀ i : Fin 12, x0 (ix2 i q) = xT (ix2 i n)) (h1 : ∀ (a : Fin 7) (b : Fin 12), x1 (ix2 a b) = w0 (ix2 a b))
    (h4 : ∀ (a : Fin 7) (b : Fin 1), x4 (ix2 a b) = b0 (ix2 a b)) :
    max (k0_pay7 x0 x1 x4 (ix2 k q)) 0 = hid0 xT w0 b0 k n := by
  rw [pay7_apply]; unfold hid0; simp only [hx, h1, h4]

/-- The stacked product's upper rows over a scratch whose row 15 is one and whose rows 0‥6 hold a column's first
    layer: the column's second layer. -/
theorem layer1_eq (x2 : Vec Ideal S7x7 .f32) (x3 : Vec Ideal S1x7 .f32) (x5 : Vec Ideal S7x1 .f32) (x6 : Vec Ideal S1x1 .f32)
    (S : Vec Ideal S16x131072 .bf16) (xT : XT) (w0 : W0) (b0 : B7) (w1 : W1) (b1 : B7) (j : Fin 7) (q : Fin 131072) (n : Fin 1048576)
    (hones : S (ix2 (15 : Fin 16) q) = 1)
    (hS : ∀ k : Fin 7, S (ix2 (⟨k.val, by omega⟩ : Fin 16) q) = hid0 xT w0 b0 k n)
    (h2 : ∀ (a : Fin 7) (b : Fin 7), x2 (ix2 a b) = w1 (ix2 a b)) (h5 : ∀ (a : Fin 7) (b : Fin 1), x5 (ix2 a b) = b1 (ix2 a b)) :
    max (k0_pay5 x2 x3 x5 x6 S (ix2 (⟨j.val, by omega⟩ : Fin 8) q)) 0 = hid1 xT w0 b0 w1 b1 j n := by
  rw [pay5_upper x2 x3 x5 x6 S j q hones]; unfold hid1; simp only [hS, h2, h5]

/-- The stacked product's last row over a scratch whose row 15 is one and whose rows 8‥14 hold a column's second
    layer: the column's logit. -/
theorem logit_eq (x2 : Vec Ideal S7x7 .f32) (x3 : Vec Ideal S1x7 .f32) (x5 : Vec Ideal S7x1 .f32) (x6 : Vec Ideal S1x1 .f32)
    (S : Vec Ideal S16x131072 .bf16) (xT : XT) (w0 : W0) (b0 : B7) (w1 : W1) (b1 : B7) (w2 : W2) (b2 : B1) (q : Fin 131072) (n : Fin 1048576)
    (hones : S (ix2 (15 : Fin 16) q) = 1)
    (hS : ∀ j : Fin 7, S (ix2 (⟨8 + j.val, by omega⟩ : Fin 16) q) = hid1 xT w0 b0 w1 b1 j n)
    (h3 : ∀ (a : Fin 1) (b : Fin 7), x3 (ix2 a b) = w2 (ix2 a b)) (h6 : ∀ (a : Fin 1) (b : Fin 1), x6 (ix2 a b) = b2 (ix2 a b)) :
    k0_pay6 x2 x3 x5 x6 S (ix2 (0 : Fin 1) q) = logit xT w0 b0 w1 b1 w2 b2 n := by
  rw [pay6_apply, pay5_lower x2 x3 x5 x6 S q hones]; unfold logit; simp only [hS, h3, h6]

/-! ## The scratch after each point -/

variable (m : (ℓ : Loc nD τ sig) → Buf (Elt Ideal) ℓ) (c : Dev nD)

/-- The three groups of rows of the scratch after point `n`. -/
def ScratchAt (n : ℕ) (hn : n < cfg0.N) : Prop :=
  (∀ q : Fin 131072, (outsAt0 (F := Ideal) m c n hn).2 (ix2 (15 : Fin 16) q) = 1)
  ∧ (∀ (k : Fin 7) (q : Fin 131072), (outsAt0 (F := Ideal) m c n hn).2 (ix2 (⟨k.val, by omega⟩ : Fin 16) q)
      = hid0 (V m c main_call0_v0) (V m c main_arg1) (V m c main_arg2) k (col (min n 7) (Nat.min_le_right _ _) q))
  ∧ (1 ≤ n → ∀ (j : Fin 7) (q : Fin 131072), (outsAt0 (F := Ideal) m c n hn).2 (ix2 (⟨8 + j.val, by omega⟩ : Fin 16) q)
      = hid1 (V m c main_call0_v0) (V m c main_arg1) (V m c main_arg2) (V m c main_arg3) (V m c main_arg4) j
          (col (min (n - 1) 7) (Nat.min_le_right _ _) q))

theorem scratchAt : ∀ (n : ℕ) (hn : n < cfg0.N), ScratchAt m c n hn
  | 0, hn => by
    have e : outsAt0 (F := Ideal) m c 0 hn = _ := outsAt0_A m c ⟨0, hn⟩ rfl
    refine ⟨fun q => ?_, fun k q => ?_, fun h => absurd h (by omega)⟩
    · rw [e]; dsimp only; rw [first_last]
    · rw [e]; dsimp only; rw [first_low]
      exact layer0_eq _ _ _ _ _ _ k q _ (fun i => iblk0_apply m c ⟨0, hn⟩ i q) (fun a b => iblk1_apply m c ⟨0, hn⟩ a b)
        (fun a b => iblk4_apply m c ⟨0, hn⟩ a b)
  | n + 1, hn => by
    obtain ⟨ih1, ih2, ih3⟩ := scratchAt n (Nat.lt_of_succ_lt hn)
    have e : outsAt0 (F := Ideal) m c (n + 1) hn = _ := outsAt0_B m c ⟨n + 1, hn⟩ (Nat.succ_ne_zero n)
    refine ⟨fun q => ?_, fun k q => ?_, fun _ j q => ?_⟩
    · rw [e]; dsimp only; rw [later_last]; exact ih1 q
    · rw [e]; dsimp only; rw [later_low]
      exact layer0_eq _ _ _ _ _ _ k q _ (fun i => iblk0_apply m c ⟨n + 1, hn⟩ i q) (fun a b => iblk1_apply m c ⟨n + 1, hn⟩ a b)
        (fun a b => iblk4_apply m c ⟨n + 1, hn⟩ a b)
    · rw [e]; dsimp only; rw [later_high]
      exact layer1_eq _ _ _ _ _ _ _ _ _ _ j q _ (ih1 q) (fun k => ih2 k q) (fun a b => iblk2_apply m c ⟨n + 1, hn⟩ a b)
        (fun a b => iblk5_apply m c ⟨n + 1, hn⟩ a b)

/-- From the third point on, the block a point stores is the logits of the columns of the block two points back. -/
theorem out_later (n : ℕ) (hn : n + 1 < cfg0.N) (h1 : 1 ≤ n) (q : Fin 131072) :
    (outsAt0 (F := Ideal) m c (n + 1) hn).1 (ix2 (0 : Fin 1) q)
      = logit (V m c main_call0_v0) (V m c main_arg1) (V m c main_arg2) (V m c main_arg3) (V m c main_arg4) (V m c main_arg5)
          (V m c main_arg6) (col (min (n - 1) 7) (Nat.min_le_right _ _) q) := by
  obtain ⟨ih1, ih2, ih3⟩ := scratchAt m c n (Nat.lt_of_succ_lt hn)
  have e : outsAt0 (F := Ideal) m c (n + 1) hn = _ := outsAt0_B m c ⟨n + 1, hn⟩ (Nat.succ_ne_zero n)
  rw [e]; dsimp only; rw [later_out]
  exact logit_eq _ _ _ _ _ _ _ _ _ _ _ _ q _ (ih1 q) (fun j => ih3 h1 j q) (fun a b => iblk3_apply m c ⟨n + 1, hn⟩ a b)
    (fun a b => iblk6_apply m c ⟨n + 1, hn⟩ a b)

end Cert.KernelIdeal.Body

end
-- ==== Proof.IdealValue.lean ====
/-
  The kernel's run, read.

  The grid has ten points. The body is software-pipelined: what it leaves in the output's staging buffer at point
  `t ≥ 2` is the row of logits of the feature columns of block `t - 2`, and the output window at point `t` is block
  `t - 2` of the one-row result, written back exactly at the points `t ≥ 2`. So each of those eight points writes its
  block of ONE row — the row of logits of the arrays the launch finds —, the eight blocks cover the row (column `n`
  lies in the block of point `n / 131072 + 2`), and the row the launch leaves is that row. Before the launch the host
  transposes the [1048576, 12] feature argument into the column-major [12, 1048576] array the launch reads; after it
  the host transposes the [1, 1048576] row into the [1048576, 1] result. Neither transpose is opened, and every
  argument ends as it began.
-/
import proofs.«128126_g2000603897208126_pallasbulk_572_16_alg».proof.Proof.IdealBlocks
import proofs.«128126_g2000603897208126_pallasbulk_572_16_alg».proof.Proof.IdealInvariant
import proofs.«128126_g2000603897208126_pallasbulk_572_16_alg».proof.Proof.MlpSpec
import Idealize.ShloMosaic.Lib.Pipeline.Value
import Idealize.ShloMosaic.Lib.Tactic

set_option maxRecDepth 16384

noncomputable section

open scoped BigOperators

namespace Cert.KernelIdeal.KValue

open Cert.KernelIdeal Cert.KernelIdeal.Gen Cert.KernelIdeal.Body
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What a point writes back, the cover, the row after the launch -/

/-- The row of logits of the arrays the launch finds: the features column-major, the weights and biases as given. -/
def rowOf (c : Dev nD) : S1x1048576.Idx → EReal :=
  Cert.MlpSpec.logitsRow (V m c main_call0_v0) (V m c main_arg1) (V m c main_arg2) (V m c main_arg3) (V m c main_arg4)
    (V m c main_arg5) (V m c main_arg6)

/-- WHAT POINT `t ≥ 2` WRITES BACK is block `t - 2` of the row of logits. -/
theorem flushed_eq (c : Dev nD) (t : Fin cfg0.N) (ht : 2 ≤ t.val) :
    (dats m 0 c).flushed 7 t = ((cfg0.win 7).blk t).view.read (Elt Ideal) (rowOf m c) := by
  show (cfg0.win 7).cut (grid0.coords t) ((dats m 0 c).after 7 t) = _
  rw [after0_7]
  refine funext fun (y : S1x131072.Idx) => ?_
  obtain ⟨p, q, rfl⟩ : ∃ (p : Fin 1) (q : Fin 131072), y = ix2 p q := ⟨y 0, y 1, eq_ix2 y⟩
  obtain rfl : p = 0 := Subsingleton.elim _ _
  have hN : cfg0.N = 10 := N_0
  have hb : t.val - 2 ≤ 7 := by have := t.isLt; omega
  have hemb : ((cfg0.win 7).blk t).view.emb (ix2 (0 : Fin 1) q) = (ix2 (0 : Fin 1) (col (t.val - 2) hb q) : S1x1048576.Idx) := by
    have e70 : win0_7.index t (0 : Fin 2) = 0 := (idx_facts t).2.2.2.2.2.2.2.2.2.2.2.2.2.2.1
    have e71 : win0_7.index t (1 : Fin 2) = t.val - 2 := (idx_facts t).2.2.2.2.2.2.2.2.2.2.2.2.2.2.2
    funext a; apply Fin.ext
    match a with
    | ⟨0, _⟩ => show win0_7.index t (0 : Fin 2) * 1 + 1 * 0 = 0; rw [e70]
    | ⟨1, _⟩ => show win0_7.index t (1 : Fin 2) * 131072 + 1 * q.val = (t.val - 2) * 131072 + q.val; rw [e71]; omega
  show (outsAt0 m c t.val t.isLt).1 (ix2 (0 : Fin 1) q) = rowOf m c (((cfg0.win 7).blk t).view.emb (ix2 (0 : Fin 1) q))
  rw [hemb]
  obtain ⟨tv, htv⟩ := t
  obtain ⟨n, rfl⟩ : ∃ n, tv = n + 1 := ⟨tv - 1, by have : 2 ≤ tv := ht; omega⟩
  have h1 : 1 ≤ n := by have : 2 ≤ n + 1 := ht; omega
  refine (out_later m c n htv h1 q).trans ?_
  show Cert.MlpSpec.logit _ _ _ _ _ _ _ _ = Cert.MlpSpec.logit _ _ _ _ _ _ _ _
  refine congrArg _ (Fin.ext ?_)
  show min (n - 1) 7 * 131072 + q.val = (n + 1 - 2) * 131072 + q.val
  have hn9 : n + 1 < 10 := hN ▸ htv
  have : min (n - 1) 7 = n + 1 - 2 := by omega
  rw [this]

/-- A column of the row is in point `t`'s block iff it is one of the point's 131072 columns. -/
theorem mem_blk (t : Fin cfg0.N) (i : S1x1048576.Idx) :
    i ∈ ((cfg0.win 7).blk t).view.set ↔ ∀ a : Fin 2, win0_7.index t a * S1x131072.size a ≤ (i a).val
      ∧ (i a).val < win0_7.index t a * S1x131072.size a + S1x131072.size a := by
  show i ∈ ((View.whole main_call0_v1).slice (win0_7.rect t)).set ↔ _
  rw [View.set_slice_whole, Rect.mem_set_unit]
  exact Iff.rfl

/-- Every column of the row is in the block of some point that writes back: column `n` in that of point `n / 131072 + 2`. -/
theorem cover (i : S1x1048576.Idx) :
    ∃ t : Fin cfg0.N, (cfg0.win 7).flush t = true ∧ i ∈ ((cfg0.win 7).blk t).view.set := by
  have hi0 : (i 0).val < 1 := (i 0).isLt
  have hi1 : (i 1).val < 1048576 := (i 1).isLt
  have hN : cfg0.N = 10 := N_0
  have ht : (i 1).val / 131072 + 2 < cfg0.N := by rw [hN]; omega
  have e70 : win0_7.index ⟨(i 1).val / 131072 + 2, ht⟩ (0 : Fin 2) = 0 := (idx_facts _).2.2.2.2.2.2.2.2.2.2.2.2.2.2.1
  have e71 : win0_7.index ⟨(i 1).val / 131072 + 2, ht⟩ (1 : Fin 2) = (i 1).val / 131072 + 2 - 2 :=
    (idx_facts _).2.2.2.2.2.2.2.2.2.2.2.2.2.2.2
  refine ⟨⟨(i 1).val / 131072 + 2, ht⟩, (flush0_7 _).mpr (by show 2 ≤ (i 1).val / 131072 + 2; omega), ?_⟩
  rw [mem_blk]
  intro a
  match a with
  | ⟨0, _⟩ =>
    show win0_7.index ⟨(i 1).val / 131072 + 2, ht⟩ (0 : Fin 2) * 1 ≤ (i 0).val
      ∧ (i 0).val < win0_7.index ⟨(i 1).val / 131072 + 2, ht⟩ (0 : Fin 2) * 1 + 1
    rw [e70]; omega
  | ⟨1, _⟩ =>
    show win0_7.index ⟨(i 1).val / 131072 + 2, ht⟩ (1 : Fin 2) * 131072 ≤ (i 1).val
      ∧ (i 1).val < win0_7.index ⟨(i 1).val / 131072 + 2, ht⟩ (1 : Fin 2) * 131072 + 131072
    rw [e71]
    show ((i 1).val / 131072 + 2 - 2) * 131072 ≤ (i 1).val ∧ (i 1).val < ((i 1).val / 131072 + 2 - 2) * 131072 + 131072
    omega

/-- THE ROW AFTER THE LAUNCH is the row of logits of the arrays the launch finds. -/
theorem final_row (c : Dev nD) : (dats m 0 c).arrAt 7 cfg0.N = rowOf m c :=
  (dats m 0 c).arrAt_eq_of_cover 7 (rowOf m c) (fun t hf => flushed_eq m c t ((flush0_7 t).mp hf)) cover

/-! ## The host's two transposes and the run -/

/-- The feature array the launch finds is the transpose of the feature argument. -/
theorem V_features (c : Dev nD) :
    (V m c main_call0_v0 : S12x1048576.Idx → EReal)
      = transpose S12x1048576 [1, 0] (m ((c.tc : Thread nD τ).loc main_arg0)) transposes_S1048576x12_S12x1048576_1_0 := by
  show StableHlo.after hostOps0 (fun b => m (c, b)) (Proc.devRef .tc main_call0_v0) = _
  after_results
  rfl

/-- The result after the host's last line is the transpose of the row the launch left. -/
theorem tail_eq (c : Dev nD) :
    (Pipeline.afterTail₀ cfgs (dats m) 0 (V0 m) [hostOps1] c main_v0 : S1048576x1.Idx → EReal)
      = transpose S1048576x1 [1, 0] ((dats m 0 c).arrAt 7 cfg0.N) transposes_S1x1048576_S1048576x1_1_0 := by
  unfold Pipeline.afterTail₀
  show StableHlo.after hostOps1 _ (Proc.devRef .tc main_v0) = _
  after_results
  show transpose S1048576x1 [1, 0]
      (Pipeline.withArrays spec0 c (V0 m c) (fun w => (dats m 0 c).arrAt w cfg0.N) (Proc.devRef .tc (Pipeline.arrRef spec0 7)))
      transposes_S1x1048576_S1048576x1_1_0 = _
  rw [Pipeline.withArrays_arr spec0 launch0.win.arr_inj c (V0 m c) (fun w => (dats m 0 c).arrAt w cfg0.N) 7]

/-- The row of logits of the arrays the launch finds, over the arguments. -/
theorem rowOf_eq (c : Dev nD) :
    rowOf m c = Cert.MlpSpec.logitsRow
      (transpose S12x1048576 [1, 0] (m ((c.tc : Thread nD τ).loc main_arg0)) transposes_S1048576x12_S12x1048576_1_0)
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold rowOf
  rw [V_features m c, V_main_arg1 m c, V_main_arg2 m c, V_main_arg3 m c, V_main_arg4 m c, V_main_arg5 m c, V_main_arg6 m c]

/-- THE RUN: the result is the transposed row of logits of the transposed features and the weights and biases as given;
    every argument ends as it began. -/
theorem run : θ_run (defs (F := Ideal)) (onTc (τ := τ) (main (F := Ideal))) ⟨m, fun _ => 0, ρ⟩ (fun r => ∀ c : Dev nD,
      r.2.mem ((c.tc : Thread nD τ).loc main_v0)
        = transpose S1048576x1 [1, 0] (Cert.MlpSpec.logitsRow
            (transpose S12x1048576 [1, 0] (m ((c.tc : Thread nD τ).loc main_arg0)) transposes_S1048576x12_S12x1048576_1_0)
            (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)))
          transposes_S1x1048576_S1048576x1_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(((h c).2 main_v0 (Pipeline.mem_restRefs_of main_v0 (by decide) (by decide))).trans (tail_eq m c)).trans
        (congrArg (fun x => transpose S1048576x1 [1, 0] x transposes_S1x1048576_S1048576x1_1_0)
          ((final_row m c).trans (rowOf_eq m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).1 2).trans (((dats m 0 c).arrAt_in 2 rfl _).trans ((A_eq m c 2).trans (V_main_arg3 m c))),
      ((h c).1 5).trans (((dats m 0 c).arrAt_in 5 rfl _).trans ((A_eq m c 5).trans (V_main_arg4 m c))),
      ((h c).1 3).trans (((dats m 0 c).arrAt_in 3 rfl _).trans ((A_eq m c 3).trans (V_main_arg5 m c))),
      ((h c).1 6).trans (((dats m 0 c).arrAt_in 6 rfl _).trans ((A_eq m c 6).trans (V_main_arg6 m c)))⟩)
    (run_main m ρ)

end Cert.KernelIdeal.KValue

end
-- ==== Proof.RefPayload.lean ====
/-
  One grid point's arithmetic, read at one column.

  The body multiplies a [7,12] weight matrix into a [12,16384] block of feature columns, adds a [7,1] bias column to every
  column, clamps below at zero; does the same with a [7,7] matrix and a second bias; and ends with a [1,7] row times the
  result plus a [1,1] bias. Each product accumulates into zeros, so at the extended reals entry (a, c) of a product is
  the plain sum over the contracted coordinate of the entries' products; a bias column read at column c is its one entry
  of the row; the clamp is `max · 0`. So column q of the stored row depends on column q of the block alone, and is the
  three-layer formula below (`blockLogit`).
-/
import proofs.«128126_g2000603897208126_pallasbulk_572_16_alg».proof.Proof.Gen.ReferenceIdeal.Skeleton
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx
open Cert.ReferenceIdeal

/-! ## A product into zeros, a bias column, at an entry -/

/-- Entry (a, b) of an m×k matrix times a k×n matrix accumulated into zeros: the sum over the contracted coordinate. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A one-column matrix broadcast along the columns reads, at (a, c), its entry of row a. -/
theorem broadcast_col_apply {α : Type} {m n : Nat} (x : (⟨2, ![m, 1]⟩ : Shape).Idx → α)
    (h : (⟨2, ![m, 1]⟩ : Shape).Broadcasts ⟨2, ![m, n]⟩) (a : Fin m) (c : Fin n) :
    broadcastTo ⟨2, ![m, n]⟩ x h (ix2 a c) = x (ix2 a (0 : Fin 1)) := by
  refine broadcastTo_apply x h (ix2 a c) (ix2 a (0 : Fin 1)) fun ax => ?_
  match ax with
  | ⟨0, _⟩ =>
    show a.val = if m = 1 then 0 else a.val
    split_ifs with hm
    · have := a.isLt; omega
    · rfl
  | ⟨1, _⟩ => rfl

/-- One hidden layer at an entry: a product into zeros, plus the bias column, clamped below at zero. -/
theorem relu_layer_apply {m k n : Nat}
    (w : DotDims.WF ⟨2, ![m, k]⟩ ⟨2, ![k, n]⟩ ⟨2, ![m, n]⟩ [1] [0] [0] [1] [] [])
    (hb : (⟨2, ![m, 1]⟩ : Shape).Broadcasts ⟨2, ![m, n]⟩)
    (A : FVec Ideal ⟨2, ![m, k]⟩ .f32) (X : FVec Ideal ⟨2, ![k, n]⟩ .f32) (b : FVec Ideal ⟨2, ![m, 1]⟩ .f32)
    (a : Fin m) (c : Fin n) :
    maximumf (addf (matmul (⟨[1], [0], [0], [1], [], [], w⟩ : DotDims ⟨2, ![m, k]⟩ ⟨2, ![k, n]⟩ ⟨2, ![m, n]⟩) none A X
          (constant (F := Ideal) ⟨2, ![m, n]⟩ .f32 0x00000000#32)) (broadcastTo ⟨2, ![m, n]⟩ b hb))
        (broadcast ⟨2, ![m, n]⟩ (Scalar.ofBits (F := Ideal) .f32 0x00000000#32)) (ix2 a c)
      = max ((∑ i : Fin k, A (ix2 a i) * X (ix2 i c)) + b (ix2 a (0 : Fin 1))) 0 := by
  rw [maximumf_apply, addf_apply, matmul_zero_apply, broadcast_col_apply, broadcast_apply]
  show max _ (Ideal.ofBits .f32 0x00000000#32) = _
  rw [Ideal.ofBits_zero_f32]

/-! ## The three layers on one block -/

/-- Unit `k` of the first hidden layer at column `q` of a block of feature columns. -/
def blockHid0 (x : Vec Ideal S12x16384 .f32) (w0 : Vec Ideal S7x12 .f32) (b0 : Vec Ideal S7x1 .f32)
    (k : Fin 7) (q : Fin 16384) : EReal :=
  max ((∑ i : Fin 12, w0 (ix2 k i) * x (ix2 i q)) + b0 (ix2 k (0 : Fin 1))) 0

/-- Unit `j` of the second hidden layer at column `q`. -/
def blockHid1 (x : Vec Ideal S12x16384 .f32) (w0 : Vec Ideal S7x12 .f32) (b0 : Vec Ideal S7x1 .f32)
    (w1 : Vec Ideal S7x7 .f32) (b1 : Vec Ideal S7x1 .f32) (j : Fin 7) (q : Fin 16384) : EReal :=
  max ((∑ k : Fin 7, w1 (ix2 j k) * blockHid0 x w0 b0 k q) + b1 (ix2 j (0 : Fin 1))) 0

/-- The logit of column `q`. -/
def blockLogit (x : Vec Ideal S12x16384 .f32) (w0 : Vec Ideal S7x12 .f32) (b0 : Vec Ideal S7x1 .f32)
    (w1 : Vec Ideal S7x7 .f32) (b1 : Vec Ideal S7x1 .f32) (w2 : Vec Ideal S1x7 .f32) (b2 : Vec Ideal S1x1 .f32)
    (q : Fin 16384) : EReal :=
  (∑ j : Fin 7, w2 (ix2 (0 : Fin 1) j) * blockHid1 x w0 b0 w1 b1 j q) + b2 (ix2 (0 : Fin 1) (0 : Fin 1))

/-- THE BODY'S STORED ROW at column `q` is the logit of column `q` of the loaded block. -/
theorem pay_apply (x0 : Vec Ideal S12x16384 .f32) (x1 : Vec Ideal S7x12 .f32) (x2 : Vec Ideal S7x1 .f32)
    (x3 : Vec Ideal S7x7 .f32) (x4 : Vec Ideal S7x1 .f32) (x5 : Vec Ideal S1x7 .f32) (x6 : Vec Ideal S1x1 .f32)
    (q : Fin 16384) :
    Gen.k0_pay1 x0 x1 x2 x3 x4 x5 x6 (ix2 (0 : Fin 1) q) = blockLogit x0 x1 x2 x3 x4 x5 x6 q := by
  unfold Gen.k0_pay1 blockLogit
  rw [addf_apply, broadcast_col_apply]
  refine congrArg (· + x6 (ix2 (0 : Fin 1) (0 : Fin 1))) ?_
  refine (matmul_zero_apply Gen.dot_S1x7_S7x16384_S1x16384_1_0_0_1_n_n_wf none x5 _ (0 : Fin 1) q).trans ?_
  refine Finset.sum_congr rfl fun j _ => congrArg (x5 (ix2 (0 : Fin 1) j) * ·) ?_
  refine (relu_layer_apply Gen.dot_S7x7_S7x16384_S7x16384_1_0_0_1_n_n_wf Gen.broadcasts_S7x1_S7x16384 x3 _ x4 j q).trans ?_
  unfold blockHid1
  refine congrArg (fun s => max (s + x4 (ix2 j (0 : Fin 1))) 0) (Finset.sum_congr rfl fun k _ => congrArg (x3 (ix2 j k) * ·) ?_)
  refine (relu_layer_apply Gen.dot_S7x12_S12x16384_S7x16384_1_0_0_1_n_n_wf Gen.broadcasts_S7x1_S7x16384 x1 _ x2 k q).trans ?_
  rw [shapeCast_self]
  rfl

end Cert.ReferenceIdeal.RefValue

end
-- ==== Proof.RefBlocks.lean ====
/-
  From one grid point's stored row to the whole row of logits.

  The grid has 64 points. Point `t` is given columns `16384·t … 16384·t + 16383` of the column-major feature array, and
  all of each weight and bias array (their block index is (0, 0) at every point); it writes back columns
  `16384·t … 16384·t + 16383` of the one-row result. Column `q` of what it stores is the logit of column `q` of its block
  (the body's arithmetic at an index), that is, the logit of example `16384·t + q`. So every point writes its block of ONE
  row — `logitsRow` of the arrays the launch finds —, the 64 blocks cover the row (column `n` lies in the block of point
  `n / 16384`), and the row the launch leaves is `logitsRow`.
-/
import proofs.«128126_g2000603897208126_pallasbulk_572_16_alg».proof.Proof.Gen.ReferenceIdeal.Frame
import proofs.«128126_g2000603897208126_pallasbulk_572_16_alg».proof.Proof.RefPayload
import proofs.«128126_g2000603897208126_pallasbulk_572_16_alg».proof.Proof.MlpSpec
import Idealize.ShloMosaic.Lib.Pipeline.Value

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The logit of a block's column is the logit of the example the column holds -/

/-- If column `q` of a block is column `n` of the feature array, the block's logit at `q` is example `n`'s logit. -/
theorem blockLogit_eq (x0 : Vec Ideal S12x16384 .f32) (xT : Cert.MlpSpec.XT) (w0 : Vec Ideal S7x12 .f32) (b0 : Vec Ideal S7x1 .f32)
    (w1 : Vec Ideal S7x7 .f32) (b1 : Vec Ideal S7x1 .f32) (w2 : Vec Ideal S1x7 .f32) (b2 : Vec Ideal S1x1 .f32)
    (q : Fin 16384) (n : Fin 1048576) (hx : ∀ i : Fin 12, x0 (ix2 i q) = xT (ix2 i n)) :
    blockLogit x0 w0 b0 w1 b1 w2 b2 q = Cert.MlpSpec.logit xT w0 b0 w1 b1 w2 b2 n := by
  unfold blockLogit Cert.MlpSpec.logit blockHid1 Cert.MlpSpec.hid1 blockHid0 Cert.MlpSpec.hid0
  simp only [hx]

/-! ## The windows' block indices, decided over the 64 points -/

/-- The feature window and the result window are at block (0, t) at point `t`; every weight and bias window at (0, 0). -/
theorem idx_facts : ∀ t : Fin cfg0.N,
    win0_0.index t (0 : Fin 2) = 0 ∧ win0_0.index t (1 : Fin 2) = t.val
    ∧ win0_7.index t (0 : Fin 2) = 0 ∧ win0_7.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The example held by column `q` of point `t`'s block. -/
def col (t : Fin cfg0.N) (q : Fin 16384) : Fin 1048576 :=
  ⟨t.val * 16384 + q.val, by have h := t.isLt; have hN : cfg0.N = 64 := N_0; have := q.isLt; omega⟩

/-! ## Each input block, read where the point's columns are -/

/-- Entry (i, q) of the feature block at point `t` is entry (i, 16384·t + q) of the feature array. -/
theorem iblk0_apply (c : Dev nD) (t : Fin cfg0.N) (i : Fin 12) (q : Fin 16384) :
    (iblk m c 0 t : Vec Ideal S12x16384 .f32) (ix2 i q) = (V m c main_call0_v0 : S12x1048576.Idx → EReal) (ix2 i (col t q)) := by
  obtain ⟨e00, e01, -⟩ := idx_facts t
  show V m c main_call0_v0 (((cfg0.win 0).blk t).view.emb (ix2 i q)) = V m c main_call0_v0 (ix2 i (col t q))
  refine congrArg (V m c main_call0_v0) (funext fun a => Fin.ext ?_)
  match a with
  | ⟨0, _⟩ => show win0_0.index t (0 : Fin 2) * 12 + 1 * i.val = i.val; rw [e00]; omega
  | ⟨1, _⟩ => show win0_0.index t (1 : Fin 2) * 16384 + 1 * q.val = t.val * 16384 + q.val; rw [e01]; omega

/-- Each weight and bias window's block is, at every point, its whole array: the block index is (0, 0). -/
theorem iblk1_eq (c : Dev nD) (t : Fin cfg0.N) :
    (iblk m c 1 t : Vec Ideal S7x12 .f32) = (V m c main_arg1 : S7x12.Idx → EReal) := by
  have e0 : win0_1.index t (0 : Fin 2) = 0 := (idx_facts t).2.2.2.2.1
  have e1 : win0_1.index t (1 : Fin 2) = 0 := (idx_facts t).2.2.2.2.2.1
  funext y
  show V m c main_arg1 (((cfg0.win 1).blk t).view.emb y) = V m c main_arg1 y
  refine congrArg (V m c main_arg1) (funext fun a => Fin.ext ?_)
  match a with
  | ⟨0, _⟩ => show win0_1.index t (0 : Fin 2) * 7 + 1 * (y 0).val = (y 0).val; rw [e0]; omega
  | ⟨1, _⟩ => show win0_1.index t (1 : Fin 2) * 12 + 1 * (y 1).val = (y 1).val; rw [e1]; omega

theorem iblk2_eq (c : Dev nD) (t : Fin cfg0.N) :
    (iblk m c 2 t : Vec Ideal S7x1 .f32) = (V m c main_arg2 : S7x1.Idx → EReal) := by
  have e0 : win0_2.index t (0 : Fin 2) = 0 := (idx_facts t).2.2.2.2.2.2.1
  have e1 : win0_2.index t (1 : Fin 2) = 0 := (idx_facts t).2.2.2.2.2.2.2.1
  funext y
  show V m c main_arg2 (((cfg0.win 2).blk t).view.emb y) = V m c main_arg2 y
  refine congrArg (V m c main_arg2) (funext fun a => Fin.ext ?_)
  match a with
  | ⟨0, _⟩ => show win0_2.index t (0 : Fin 2) * 7 + 1 * (y 0).val = (y 0).val; rw [e0]; omega
  | ⟨1, _⟩ => show win0_2.index t (1 : Fin 2) * 1 + 1 * (y 1).val = (y 1).val; rw [e1]; omega

theorem iblk3_eq (c : Dev nD) (t : Fin cfg0.N) :
    (iblk m c 3 t : Vec Ideal S7x7 .f32) = (V m c main_arg3 : S7x7.Idx → EReal) := by
  have e0 : win0_3.index t (0 : Fin 2) = 0 := (idx_facts t).2.2.2.2.2.2.2.2.1
  have e1 : win0_3.index t (1 : Fin 2) = 0 := (idx_facts t).2.2.2.2.2.2.2.2.2.1
  funext y
  show V m c main_arg3 (((cfg0.win 3).blk t).view.emb y) = V m c main_arg3 y
  refine congrArg (V m c main_arg3) (funext fun a => Fin.ext ?_)
  match a with
  | ⟨0, _⟩ => show win0_3.index t (0 : Fin 2) * 7 + 1 * (y 0).val = (y 0).val; rw [e0]; omega
  | ⟨1, _⟩ => show win0_3.index t (1 : Fin 2) * 7 + 1 * (y 1).val = (y 1).val; rw [e1]; omega

theorem iblk4_eq (c : Dev nD) (t : Fin cfg0.N) :
    (iblk m c 4 t : Vec Ideal S7x1 .f32) = (V m c main_arg4 : S7x1.Idx → EReal) := by
  have e0 : win0_4.index t (0 : Fin 2) = 0 := (idx_facts t).2.2.2.2.2.2.2.2.2.2.1
  have e1 : win0_4.index t (1 : Fin 2) = 0 := (idx_facts t).2.2.2.2.2.2.2.2.2.2.2.1
  funext y
  show V m c main_arg4 (((cfg0.win 4).blk t).view.emb y) = V m c main_arg4 y
  refine congrArg (V m c main_arg4) (funext fun a => Fin.ext ?_)
  match a with
  | ⟨0, _⟩ => show win0_4.index t (0 : Fin 2) * 7 + 1 * (y 0).val = (y 0).val; rw [e0]; omega
  | ⟨1, _⟩ => show win0_4.index t (1 : Fin 2) * 1 + 1 * (y 1).val = (y 1).val; rw [e1]; omega

theorem iblk5_eq (c : Dev nD) (t : Fin cfg0.N) :
    (iblk m c 5 t : Vec Ideal S1x7 .f32) = (V m c main_arg5 : S1x7.Idx → EReal) := by
  have e0 : win0_5.index t (0 : Fin 2) = 0 := (idx_facts t).2.2.2.2.2.2.2.2.2.2.2.2.1
  have e1 : win0_5.index t (1 : Fin 2) = 0 := (idx_facts t).2.2.2.2.2.2.2.2.2.2.2.2.2.1
  funext y
  show V m c main_arg5 (((cfg0.win 5).blk t).view.emb y) = V m c main_arg5 y
  refine congrArg (V m c main_arg5) (funext fun a => Fin.ext ?_)
  match a with
  | ⟨0, _⟩ => show win0_5.index t (0 : Fin 2) * 1 + 1 * (y 0).val = (y 0).val; rw [e0]; omega
  | ⟨1, _⟩ => show win0_5.index t (1 : Fin 2) * 7 + 1 * (y 1).val = (y 1).val; rw [e1]; omega

theorem iblk6_eq (c : Dev nD) (t : Fin cfg0.N) :
    (iblk m c 6 t : Vec Ideal S1x1 .f32) = (V m c main_arg6 : S1x1.Idx → EReal) := by
  have e0 : win0_6.index t (0 : Fin 2) = 0 := (idx_facts t).2.2.2.2.2.2.2.2.2.2.2.2.2.2.1
  have e1 : win0_6.index t (1 : Fin 2) = 0 := (idx_facts t).2.2.2.2.2.2.2.2.2.2.2.2.2.2.2
  funext y
  show V m c main_arg6 (((cfg0.win 6).blk t).view.emb y) = V m c main_arg6 y
  refine congrArg (V m c main_arg6) (funext fun a => Fin.ext ?_)
  match a with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega

/-! ## What a point writes back, the cover, the row after the launch -/

/-- The row of logits of the arrays the launch finds: the features column-major, the weights and biases as given. -/
def rowOf (c : Dev nD) : S1x1048576.Idx → EReal :=
  Cert.MlpSpec.logitsRow (V m c main_call0_v0) (V m c main_arg1) (V m c main_arg2) (V m c main_arg3) (V m c main_arg4)
    (V m c main_arg5) (V m c main_arg6)

/-- One column of one point: the logit of the point's blocks at column `q` is example `n`'s, when column `q` of the feature
    block is column `n` of the features and the other blocks are the whole weight and bias arrays. -/
theorem point_eq (x0 : Vec Ideal S12x16384 .f32) (x1 : Vec Ideal S7x12 .f32) (x2 : Vec Ideal S7x1 .f32)
    (x3 : Vec Ideal S7x7 .f32) (x4 : Vec Ideal S7x1 .f32) (x5 : Vec Ideal S1x7 .f32) (x6 : Vec Ideal S1x1 .f32)
    (xT : Cert.MlpSpec.XT) (w0 : Vec Ideal S7x12 .f32) (b0 : Vec Ideal S7x1 .f32) (w1 : Vec Ideal S7x7 .f32) (b1 : Vec Ideal S7x1 .f32)
    (w2 : Vec Ideal S1x7 .f32) (b2 : Vec Ideal S1x1 .f32) (q : Fin 16384) (n : Fin 1048576)
    (hx : ∀ i : Fin 12, x0 (ix2 i q) = xT (ix2 i n)) (h1 : x1 = w0) (h2 : x2 = b0) (h3 : x3 = w1) (h4 : x4 = b1)
    (h5 : x5 = w2) (h6 : x6 = b2) :
    Gen.k0_pay1 x0 x1 x2 x3 x4 x5 x6 (ix2 (0 : Fin 1) q) = Cert.MlpSpec.logitsRow xT w0 b0 w1 b1 w2 b2 (ix2 (0 : Fin 1) n) := by
  subst h1 h2 h3 h4 h5 h6
  exact (pay_apply x0 x1 x2 x3 x4 x5 x6 q).trans (blockLogit_eq x0 xT x1 x2 x3 x4 x5 x6 q n hx)

/-- WHAT POINT `t` WRITES BACK is block `t` of the row of logits. -/
theorem flushed_eq (c : Dev nD) (t : Fin cfg0.N) :
    (dats m 0 c).flushed 7 t = ((cfg0.win 7).blk t).view.read (Elt Ideal) (rowOf m c) := by
  show (cfg0.win 7).cut (grid0.coords t) ((dats m 0 c).after 7 t) = _
  rw [after0_7]
  unfold out0_7
  rw [View.canon_unit_zero hz]
  simp only [View.ld_unit_zero (S := S12x16384) hz, View.ld_unit_zero (S := S7x12) hz, View.ld_unit_zero (S := S7x1) hz,
    View.ld_unit_zero (S := S7x7) hz, View.ld_unit_zero (S := S1x7) hz, View.ld_unit_zero (S := S1x1) hz]
  refine funext fun (y : S1x16384.Idx) => ?_
  obtain ⟨p, q, rfl⟩ : ∃ (p : Fin 1) (q : Fin 16384), y = ix2 p q := ⟨y 0, y 1, eq_ix2 y⟩
  obtain rfl : p = 0 := Subsingleton.elim _ _
  have hemb : ((cfg0.win 7).blk t).view.emb (ix2 (0 : Fin 1) q) = (ix2 (0 : Fin 1) (col t q) : S1x1048576.Idx) := by
    obtain ⟨-, -, e70, e71, -⟩ := idx_facts t
    funext a; apply Fin.ext
    match a with
    | ⟨0, _⟩ => show win0_7.index t (0 : Fin 2) * 1 + 1 * 0 = 0; rw [e70]
    | ⟨1, _⟩ => show win0_7.index t (1 : Fin 2) * 16384 + 1 * q.val = t.val * 16384 + q.val; rw [e71]; omega
  show Gen.k0_pay1 (iblk m c 0 t) (iblk m c 1 t) (iblk m c 2 t) (iblk m c 3 t) (iblk m c 4 t) (iblk m c 5 t) (iblk m c 6 t) (ix2 (0 : Fin 1) q)
    = rowOf m c (((cfg0.win 7).blk t).view.emb (ix2 (0 : Fin 1) q))
  rw [hemb]
  exact point_eq (iblk m c 0 t) (iblk m c 1 t) (iblk m c 2 t) (iblk m c 3 t) (iblk m c 4 t) (iblk m c 5 t) (iblk m c 6 t)
    (V m c main_call0_v0) (V m c main_arg1) (V m c main_arg2) (V m c main_arg3) (V m c main_arg4) (V m c main_arg5) (V m c main_arg6)
    q (col t q) (fun i => iblk0_apply m c t i q) (iblk1_eq m c t) (iblk2_eq m c t) (iblk3_eq m c t) (iblk4_eq m c t)
    (iblk5_eq m c t) (iblk6_eq m c t)

/-- A column of the row is in point `t`'s block iff it is one of the point's 16384 columns. -/
theorem mem_blk (t : Fin cfg0.N) (i : S1x1048576.Idx) :
    i ∈ ((cfg0.win 7).blk t).view.set ↔ ∀ a : Fin 2, win0_7.index t a * S1x16384.size a ≤ (i a).val
      ∧ (i a).val < win0_7.index t a * S1x16384.size a + S1x16384.size a := by
  show i ∈ ((View.whole main_call0_v1).slice (win0_7.rect t)).set ↔ _
  rw [View.set_slice_whole, Rect.mem_set_unit]
  exact Iff.rfl

/-- Every column of the row is in some point's block: column `n` in that of point `n / 16384`. -/
theorem cover (i : S1x1048576.Idx) :
    ∃ t : Fin cfg0.N, (cfg0.win 7).flush t = true ∧ i ∈ ((cfg0.win 7).blk t).view.set := by
  have hi0 : (i 0).val < 1 := (i 0).isLt
  have hi1 : (i 1).val < 1048576 := (i 1).isLt
  have hN : cfg0.N = 64 := N_0
  have ht : (i 1).val / 16384 < cfg0.N := by rw [hN]; omega
  obtain ⟨-, -, e70, e71, -⟩ := idx_facts ⟨(i 1).val / 16384, ht⟩
  refine ⟨⟨(i 1).val / 16384, ht⟩, flush0_7 _, ?_⟩
  rw [mem_blk]
  intro a
  match a with
  | ⟨0, _⟩ =>
    show win0_7.index ⟨(i 1).val / 16384, ht⟩ (0 : Fin 2) * 1 ≤ (i 0).val
      ∧ (i 0).val < win0_7.index ⟨(i 1).val / 16384, ht⟩ (0 : Fin 2) * 1 + 1
    rw [e70]; omega
  | ⟨1, _⟩ =>
    show win0_7.index ⟨(i 1).val / 16384, ht⟩ (1 : Fin 2) * 16384 ≤ (i 1).val
      ∧ (i 1).val < win0_7.index ⟨(i 1).val / 16384, ht⟩ (1 : Fin 2) * 16384 + 16384
    rw [e71]
    show (i 1).val / 16384 * 16384 ≤ (i 1).val ∧ (i 1).val < (i 1).val / 16384 * 16384 + 16384
    omega

/-- THE ROW AFTER THE LAUNCH is the row of logits of the arrays the launch finds. -/
theorem final_row (c : Dev nD) : (dats m 0 c).arrAt 7 cfg0.N = rowOf m c :=
  (dats m 0 c).arrAt_eq_of_cover 7 (rowOf m c) (fun t _ => flushed_eq m c t) cover

end Cert.ReferenceIdeal.RefValue

end
-- ==== Proof.RefValue.lean ====
/-
  The reference's run, read.

  Before the launch the host transposes the [1048576,12] feature argument into the column-major [12,1048576] array the
  launch reads, and writes no other argument; after it the host transposes the [1,1048576] row the launch left into the
  [1048576,1] result. The launch leaves the row of logits of the arrays it finds (`final_row`). So the result is the
  transpose of the row of logits of the transposed features and the weight and bias arguments, and every argument ends
  as it began. Neither transpose is opened.
-/
import proofs.«128126_g2000603897208126_pallasbulk_572_16_alg».proof.Proof.RefBlocks
import Idealize.ShloMosaic.Lib.Tactic

noncomputable section

namespace Cert.ReferenceIdeal.RefValue

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The feature array the launch finds is the transpose of the feature argument. -/
theorem V_features (c : Dev nD) :
    (V m c main_call0_v0 : S12x1048576.Idx → EReal)
      = transpose S12x1048576 [1, 0] (m ((c.tc : Thread nD τ).loc main_arg0)) transposes_S1048576x12_S12x1048576_1_0 := by
  show StableHlo.after hostOps0 (fun b => m (c, b)) (Proc.devRef .tc main_call0_v0) = _
  after_results
  rfl

/-- The result after the host's last line is the transpose of the row the launch left. -/
theorem tail_eq (c : Dev nD) :
    (Pipeline.afterTail₀ cfgs (dats m) 0 (V0 m) [hostOps1] c main_v0 : S1048576x1.Idx → EReal)
      = transpose S1048576x1 [1, 0] ((dats m 0 c).arrAt 7 cfg0.N) transposes_S1x1048576_S1048576x1_1_0 := by
  unfold Pipeline.afterTail₀
  show StableHlo.after hostOps1 _ (Proc.devRef .tc main_v0) = _
  after_results
  show transpose S1048576x1 [1, 0]
      (Pipeline.withArrays spec0 c (V0 m c) (fun w => (dats m 0 c).arrAt w cfg0.N) (Proc.devRef .tc (Pipeline.arrRef spec0 7)))
      transposes_S1x1048576_S1048576x1_1_0 = _
  rw [Pipeline.withArrays_arr spec0 launch0.win.arr_inj c (V0 m c) (fun w => (dats m 0 c).arrAt w cfg0.N) 7]

/-- The row of logits of the arrays the launch finds, over the arguments. -/
theorem rowOf_eq (c : Dev nD) :
    rowOf m c = Cert.MlpSpec.logitsRow
      (transpose S12x1048576 [1, 0] (m ((c.tc : Thread nD τ).loc main_arg0)) transposes_S1048576x12_S12x1048576_1_0)
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold rowOf
  rw [V_features m c, V_main_arg1 m c, V_main_arg2 m c, V_main_arg3 m c, V_main_arg4 m c, V_main_arg5 m c, V_main_arg6 m c]

/-- THE RUN: the result is the transposed row of logits of the transposed features and the weights and biases as given;
    every argument ends as it began. -/
theorem run : θ_run (defs (F := Ideal)) (onTc (τ := τ) (main (F := Ideal))) ⟨m, fun _ => 0, ρ⟩ (fun r => ∀ c : Dev nD,
      r.2.mem ((c.tc : Thread nD τ).loc main_v0)
        = transpose S1048576x1 [1, 0] (Cert.MlpSpec.logitsRow
            (transpose S12x1048576 [1, 0] (m ((c.tc : Thread nD τ).loc main_arg0)) transposes_S1048576x12_S12x1048576_1_0)
            (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)))
          transposes_S1x1048576_S1048576x1_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(((h c).2 main_v0 (Pipeline.mem_restRefs_of main_v0 (by decide) (by decide))).trans (tail_eq m c)).trans
        (congrArg (fun x => transpose S1048576x1 [1, 0] x transposes_S1x1048576_S1048576x1_1_0)
          ((final_row m c).trans (rowOf_eq m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.ReferenceIdeal.RefValue

end
-- ==== Proof.lean ====
/-
  The certificate: a software-pipelined three-layer perceptron against its plain reference.

  Both programs compute, for each of 1,048,576 columns of twelve features, `W2·max(W1·max(W0·x + b0, 0) + b1, 0) + b2`.
  The reference does it in one grid point per block of columns. The kernel spreads one block's computation over
  three consecutive grid points through a scratch it keeps between points: at a point it forms the first layer of
  the current block, the second layer of the previous block and the logits of the block before that, the last two
  in one product against a stacked matrix whose last column, met by a row of ones in the scratch, carries the
  biases; two extra points drain the pipeline. At the ideal floats every rounding is the identity, a product with
  a zero entry is zero and a product with one is the other factor, so the two programs agree entry by entry with
  no assumption on the inputs.

  The three frames: each program terminates, faults nowhere and leaves its arguments unchanged (the kernel's two
  from the run of its body at a first and at a later grid point, the reference's generated whole). Nothing was
  rewritten when the kernel was idealized, so that conjunct is trivial. The last conjunct joins the two values.
-/
import proofs.«128126_g2000603897208126_pallasbulk_572_16_alg».proof.Defs
import proofs.«128126_g2000603897208126_pallasbulk_572_16_alg».proof.Proof.BitsFrame
import proofs.«128126_g2000603897208126_pallasbulk_572_16_alg».proof.Proof.IdealFrame
import proofs.«128126_g2000603897208126_pallasbulk_572_16_alg».proof.Proof.Gen.ReferenceIdeal.Frame
import proofs.«128126_g2000603897208126_pallasbulk_572_16_alg».proof.Proof.Gen.Pre_finite_inputs
import proofs.«128126_g2000603897208126_pallasbulk_572_16_alg».proof.Proof.IdealValue
import proofs.«128126_g2000603897208126_pallasbulk_572_16_alg».proof.Proof.RefValue

noncomputable section

namespace Cert.Proof

open Idealize.ShloMosaic Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ => Cert.ReferenceIdeal.Gen.frame m ρ

/-- The idealization rewrote no operation of the kernel. -/
theorem preserves : Cert.preserves_Kernel_KernelIdeal := trivial

/-- At the ideal floats both programs end with the transposed row of logits of the transposed features: the kernel
    by the contents of its scratch point by point, the reference block by block; the arguments agree, so the two
    terms are one. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
